-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_v56) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8x256x256x1 : Shape := ⟨5, ![4, 8, 256, 256, 1]⟩
abbrev S4x256x256x200 : Shape := ⟨4, ![4, 256, 256, 200]⟩
abbrev S_ : Shape := ⟨0, ![]⟩

class Facts : Prop where
  bcast_S_S4x8x256x256x1 : S_.BroadcastsInDim S4x8x256x256x1 (![] : Fin 0 → Fin S4x8x256x256x1.rank)
  reducesTo_S4x8x256x256x1_S_d0_1_2_3_4 : S4x8x256x256x1.ReducesTo [0, 1, 2, 3, 4] S_
  h_S_ : 0 < S_.numel
  bcast_S_S4x256x256x200 : S_.BroadcastsInDim S4x256x256x200 (![] : Fin 0 → Fin S4x256x256x200.rank)
  reducesTo_S4x256x256x200_S_d0_1_2_3 : S4x256x256x200.ReducesTo [0, 1, 2, 3] S_

variable [Facts]

def fn {F : FTy → Type} [FloatOps F] (main_arg0 : FVec F S4x8x256x256x1 .f32) (main_arg1 : FVec F S4x256x256x200 .f32) : IVec S_ 1 :=
  let main_v0 : FVec F S4x8x256x256x1 .f32 := Host.absf main_arg0
  let main_cst : FVec F S_ .f32 := constant S_ .f32 0x7F800000#32
  let main_v1 : FVec F S4x8x256x256x1 .f32 := broadcastInDim S4x8x256x256x1 ![] bcast_S_S4x8x256x256x1 main_cst
  let main_v2 : IVec S4x8x256x256x1 1 := cmpf .olt main_v0 main_v1
  let main_c : IVec S_ 1 := constantI S_ 1 1#1
  let main_v3 : IVec S_ 1 := (fun x v => Host.reduce IntOp.andi x v reducesTo_S4x8x256x256x1_S_d0_1_2_3_4 h_S_) main_v2 main_c
  let main_v4 : FVec F S4x256x256x200 .f32 := Host.absf main_arg1
  let main_cst_0 : FVec F S_ .f32 := constant S_ .f32 0x7F800000#32
  let main_v5 : FVec F S4x256x256x200 .f32 := broadcastInDim S4x256x256x200 ![] bcast_S_S4x256x256x200 main_cst_0
  let main_v6 : IVec S4x256x256x200 1 := cmpf .olt main_v4 main_v5
  let main_c_1 : IVec S_ 1 := constantI S_ 1 1#1
  let main_v7 : IVec S_ 1 := (fun x v => Host.reduce IntOp.andi x v reducesTo_S4x256x256x200_S_d0_1_2_3 h_S_) main_v6 main_c_1
  let main_v8 : IVec S_ 1 := andi main_v3 main_v7
  main_v8
-- ==== Kernel.lean ====
abbrev S4x8x256x256x1 : Shape := ⟨5, ![4, 8, 256, 256, 1]⟩
abbrev S4x256x256x200 : Shape := ⟨4, ![4, 256, 256, 200]⟩
abbrev S4x8x256x256x25 : Shape := ⟨5, ![4, 8, 256, 256, 25]⟩
abbrev S4x8x256x256 : Shape := ⟨4, ![4, 8, 256, 256]⟩
abbrev S_ : Shape := ⟨0, ![]⟩
abbrev S4x8x260x260 : Shape := ⟨4, ![4, 8, 260, 260]⟩
abbrev S4x256x256 : Shape := ⟨3, ![4, 256, 256]⟩
abbrev S1x1x128x256x25 : Shape := ⟨5, ![1, 1, 128, 256, 25]⟩
abbrev S1x1x260x260 : Shape := ⟨4, ![1, 1, 260, 260]⟩
abbrev S1x1x128x256 : Shape := ⟨4, ![1, 1, 128, 256]⟩
abbrev S1x128x256 : Shape := ⟨3, ![1, 128, 256]⟩
abbrev S128x256 : Shape := ⟨2, ![128, 256]⟩
abbrev S1x1x132x260 : Shape := ⟨4, ![1, 1, 132, 260]⟩
abbrev S132x260 : Shape := ⟨2, ![132, 260]⟩
abbrev S1x1x128x256x1 : Shape := ⟨5, ![1, 1, 128, 256, 1]⟩
abbrev S4x256x256x1 : Shape := ⟨4, ![4, 256, 256, 1]⟩

abbrev nBuf : Space → Nat
  | .hbm => 11
  | .vmem => 9
  | .smem => 0
  | _ => 0

abbrev bufTy : (tb : Table) → Fin (tcTables nBuf tb) → BufTy
  | .hbm, ⟨0, _⟩ => ⟨S4x8x256x256x1, .f32⟩
  | .hbm, ⟨1, _⟩ => ⟨S4x256x256x200, .f32⟩
  | .hbm, ⟨2, _⟩ => ⟨S4x8x256x256x25, .f32⟩
  | .hbm, ⟨3, _⟩ => ⟨S4x8x256x256, .f32⟩
  | .hbm, ⟨4, _⟩ => ⟨S_, .i32⟩
  | .hbm, ⟨5, _⟩ => ⟨S_, .f32⟩
  | .hbm, ⟨6, _⟩ => ⟨S4x8x260x260, .f32⟩
  | .hbm, ⟨7, _⟩ => ⟨S4x8x256x256, .f32⟩
  | .hbm, ⟨8, _⟩ => ⟨S4x256x256, .f32⟩
  | .hbm, ⟨9, _⟩ => ⟨S4x256x256x1, .f32⟩
  | .hbm, ⟨10, _⟩ => ⟨S4x8x256x256x1, .f32⟩
  | .local _ .vmem, ⟨0, _⟩ => ⟨S1x1x128x256x25, .f32⟩
  | .local _ .vmem, ⟨1, _⟩ => ⟨S1x1x128x256x25, .f32⟩
  | .local _ .vmem, ⟨2, _⟩ => ⟨S1x1x260x260, .f32⟩
  | .local _ .vmem, ⟨3, _⟩ => ⟨S1x1x260x260, .f32⟩
  | .local _ .vmem, ⟨4, _⟩ => ⟨S1x1x128x256, .f32⟩
  | .local _ .vmem, ⟨5, _⟩ => ⟨S1x1x128x256, .f32⟩
  | .local _ .vmem, ⟨6, _⟩ => ⟨S1x128x256, .f32⟩
  | .local _ .vmem, ⟨7, _⟩ => ⟨S1x128x256, .f32⟩
  | .local _ .vmem, ⟨8, _⟩ => ⟨S128x256, .f32⟩
  | _, _ => ⟨S4x8x256x256x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 8], ![false, false, false]⟩

def k0_mult1 (i : grid0.Coords) : BitVec 32 :=
  let arg1 : BitVec 32 := BitVec.ofNat 32 (i 1).val
  let c128_i32 : BitVec 32 := 128#32
  let v3 : BitVec 32 := Scalar.muli arg1 c128_i32
  v3
def k0_off1 (i : grid0.Coords) : Fin 4 → Nat :=
  let c0 : Index := 0#32
  let c0_1 : Index := 0#32
  let arg1 : BitVec 32 := BitVec.ofNat 32 (i 1).val
  let c128_i32 : BitVec 32 := 128#32
  let v3 : BitVec 32 := Scalar.muli arg1 c128_i32
  let v4 : BitVec 32 := v3
  let v5 : Index := Scalar.indexCast v4
  let c0_2 : Index := 0#32
  ![0, 0, v5.toNat, 0]
def k0_cond2 (i : grid0.Coords) : BitVec 1 :=
  let arg2 : BitVec 32 := BitVec.ofNat 32 (i 2).val
  let c7_i32 : BitVec 32 := 7#32
  let v142 : BitVec 1 := Scalar.cmpi .eq arg2 c7_i32
  let v143 : BitVec 32 := Scalar.extui v142
  let c0_i32_112 : BitVec 32 := 0#32
  let v144 : BitVec 1 := Scalar.cmpi .ne v143 c0_i32_112
  v144

def cc0_transform_0 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1x128x256x25 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x260x260 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S4x256x256x200_S4x8x256x256x25 : S4x256x256x200.ShapeCasts S4x8x256x256x25
  shapeCasts_S4x8x256x256x1_S4x8x256x256 : S4x8x256x256x1.ShapeCasts S4x8x256x256
  pads_S4x8x256x256_S4x8x260x260_000_000_220_220 : S4x8x256x256.Pads (![0, 0, 2, 2] : Fin 4 → Nat) ![0, 0, 2, 2] ![0, 0, 0, 0] S4x8x260x260
  h_S_ : 0 < S_.numel
  inb_S128x256_S128x256_0_0 : ∀ a, (![0, 0] : Fin 2 → Nat) a + S128x256.size a ≤ S128x256.size a
  h_S128x256 : 0 < S128x256.numel
  shapeCasts_S128x256_S128x256 : S128x256.ShapeCasts S128x256
  h_S1x1x132x260 : 0 < S1x1x132x260.numel
  shapeCasts_S1x1x132x260_S132x260 : S1x1x132x260.ShapeCasts S132x260
  slices_S132x260_o0_0_S128x256 : S132x260.Slices ![0, 0] S128x256
  inb_S1x1x128x256x25_S1x1x128x256x1_0_0_0_0_0 : ∀ a, (![0, 0, 0, 0, 0] : Fin 5 → Nat) a + S1x1x128x256x1.size a ≤ S1x1x128x256x25.size a
  h_S1x1x128x256x1 : 0 < S1x1x128x256x1.numel
  shapeCasts_S1x1x128x256x1_S128x256 : S1x1x128x256x1.ShapeCasts S128x256
  slices_S132x260_o0_1_S128x256 : S132x260.Slices ![0, 1] S128x256
  inb_S1x1x128x256x25_S1x1x128x256x1_0_0_0_0_1 : ∀ a, (![0, 0, 0, 0, 1] : Fin 5 → Nat) a + S1x1x128x256x1.size a ≤ S1x1x128x256x25.size a
  slices_S132x260_o0_2_S128x256 : S132x260.Slices ![0, 2] S128x256
  inb_S1x1x128x256x25_S1x1x128x256x1_0_0_0_0_2 : ∀ a, (![0, 0, 0, 0, 2] : Fin 5 → Nat) a + S1x1x128x256x1.size a ≤ S1x1x128x256x25.size a
  slices_S132x260_o0_3_S128x256 : S132x260.Slices ![0, 3] S128x256
  inb_S1x1x128x256x25_S1x1x128x256x1_0_0_0_0_3 : ∀ a, (![0, 0, 0, 0, 3] : Fin 5 → Nat) a + S1x1x128x256x1.size a ≤ S1x1x128x256x25.size a
  slices_S132x260_o0_4_S128x256 : S132x260.Slices ![0, 4] S128x256
  inb_S1x1x128x256x25_S1x1x128x256x1_0_0_0_0_4 : ∀ a, (![0, 0, 0, 0, 4] : Fin 5 → Nat) a + S1x1x128x256x1.size a ≤ S1x1x128x256x25.size a
  slices_S132x260_o1_0_S128x256 : S132x260.Slices ![1, 0] S128x256
  inb_S1x1x128x256x25_S1x1x128x256x1_0_0_0_0_5 : ∀ a, (![0, 0, 0, 0, 5] : Fin 5 → Nat) a + S1x1x128x256x1.size a ≤ S1x1x128x256x25.size a
  slices_S132x260_o1_1_S128x256 : S132x260.Slices ![1, 1] S128x256
  inb_S1x1x128x256x25_S1x1x128x256x1_0_0_0_0_6 : ∀ a, (![0, 0, 0, 0, 6] : Fin 5 → Nat) a + S1x1x128x256x1.size a ≤ S1x1x128x256x25.size a
  slices_S132x260_o1_2_S128x256 : S132x260.Slices ![1, 2] S128x256
  inb_S1x1x128x256x25_S1x1x128x256x1_0_0_0_0_7 : ∀ a, (![0, 0, 0, 0, 7] : Fin 5 → Nat) a + S1x1x128x256x1.size a ≤ S1x1x128x256x25.size a
  slices_S132x260_o1_3_S128x256 : S132x260.Slices ![1, 3] S128x256
  inb_S1x1x128x256x25_S1x1x128x256x1_0_0_0_0_8 : ∀ a, (![0, 0, 0, 0, 8] : Fin 5 → Nat) a + S1x1x128x256x1.size a ≤ S1x1x128x256x25.size a
  slices_S132x260_o1_4_S128x256 : S132x260.Slices ![1, 4] S128x256
  inb_S1x1x128x256x25_S1x1x128x256x1_0_0_0_0_9 : ∀ a, (![0, 0, 0, 0, 9] : Fin 5 → Nat) a + S1x1x128x256x1.size a ≤ S1x1x128x256x25.size a
  slices_S132x260_o2_0_S128x256 : S132x260.Slices ![2, 0] S128x256
  inb_S1x1x128x256x25_S1x1x128x256x1_0_0_0_0_10 : ∀ a, (![0, 0, 0, 0, 10] : Fin 5 → Nat) a + S1x1x128x256x1.size a ≤ S1x1x128x256x25.size a
  slices_S132x260_o2_1_S128x256 : S132x260.Slices ![2, 1] S128x256
  inb_S1x1x128x256x25_S1x1x128x256x1_0_0_0_0_11 : ∀ a, (![0, 0, 0, 0, 11] : Fin 5 → Nat) a + S1x1x128x256x1.size a ≤ S1x1x128x256x25.size a
  slices_S132x260_o2_2_S128x256 : S132x260.Slices ![2, 2] S128x256
  inb_S1x1x128x256x25_S1x1x128x256x1_0_0_0_0_12 : ∀ a, (![0, 0, 0, 0, 12] : Fin 5 → Nat) a + S1x1x128x256x1.size a ≤ S1x1x128x256x25.size a
  slices_S132x260_o2_3_S128x256 : S132x260.Slices ![2, 3] S128x256
  inb_S1x1x128x256x25_S1x1x128x256x1_0_0_0_0_13 : ∀ a, (![0, 0, 0, 0, 13] : Fin 5 → Nat) a + S1x1x128x256x1.size a ≤ S1x1x128x256x25.size a
  slices_S132x260_o2_4_S128x256 : S132x260.Slices ![2, 4] S128x256
  inb_S1x1x128x256x25_S1x1x128x256x1_0_0_0_0_14 : ∀ a, (![0, 0, 0, 0, 14] : Fin 5 → Nat) a + S1x1x128x256x1.size a ≤ S1x1x128x256x25.size a
  slices_S132x260_o3_0_S128x256 : S132x260.Slices ![3, 0] S128x256
  inb_S1x1x128x256x25_S1x1x128x256x1_0_0_0_0_15 : ∀ a, (![0, 0, 0, 0, 15] : Fin 5 → Nat) a + S1x1x128x256x1.size a ≤ S1x1x128x256x25.size a
  slices_S132x260_o3_1_S128x256 : S132x260.Slices ![3, 1] S128x256
  inb_S1x1x128x256x25_S1x1x128x256x1_0_0_0_0_16 : ∀ a, (![0, 0, 0, 0, 16] : Fin 5 → Nat) a + S1x1x128x256x1.size a ≤ S1x1x128x256x25.size a
  slices_S132x260_o3_2_S128x256 : S132x260.Slices ![3, 2] S128x256
  inb_S1x1x128x256x25_S1x1x128x256x1_0_0_0_0_17 : ∀ a, (![0, 0, 0, 0, 17] : Fin 5 → Nat) a + S1x1x128x256x1.size a ≤ S1x1x128x256x25.size a
  slices_S132x260_o3_3_S128x256 : S132x260.Slices ![3, 3] S128x256
  inb_S1x1x128x256x25_S1x1x128x256x1_0_0_0_0_18 : ∀ a, (![0, 0, 0, 0, 18] : Fin 5 → Nat) a + S1x1x128x256x1.size a ≤ S1x1x128x256x25.size a
  slices_S132x260_o3_4_S128x256 : S132x260.Slices ![3, 4] S128x256
  inb_S1x1x128x256x25_S1x1x128x256x1_0_0_0_0_19 : ∀ a, (![0, 0, 0, 0, 19] : Fin 5 → Nat) a + S1x1x128x256x1.size a ≤ S1x1x128x256x25.size a
  slices_S132x260_o4_0_S128x256 : S132x260.Slices ![4, 0] S128x256
  inb_S1x1x128x256x25_S1x1x128x256x1_0_0_0_0_20 : ∀ a, (![0, 0, 0, 0, 20] : Fin 5 → Nat) a + S1x1x128x256x1.size a ≤ S1x1x128x256x25.size a
  slices_S132x260_o4_1_S128x256 : S132x260.Slices ![4, 1] S128x256
  inb_S1x1x128x256x25_S1x1x128x256x1_0_0_0_0_21 : ∀ a, (![0, 0, 0, 0, 21] : Fin 5 → Nat) a + S1x1x128x256x1.size a ≤ S1x1x128x256x25.size a
  slices_S132x260_o4_2_S128x256 : S132x260.Slices ![4, 2] S128x256
  inb_S1x1x128x256x25_S1x1x128x256x1_0_0_0_0_22 : ∀ a, (![0, 0, 0, 0, 22] : Fin 5 → Nat) a + S1x1x128x256x1.size a ≤ S1x1x128x256x25.size a
  slices_S132x260_o4_3_S128x256 : S132x260.Slices ![4, 3] S128x256
  inb_S1x1x128x256x25_S1x1x128x256x1_0_0_0_0_23 : ∀ a, (![0, 0, 0, 0, 23] : Fin 5 → Nat) a + S1x1x128x256x1.size a ≤ S1x1x128x256x25.size a
  slices_S132x260_o4_4_S128x256 : S132x260.Slices ![4, 4] S128x256
  inb_S1x1x128x256x25_S1x1x128x256x1_0_0_0_0_24 : ∀ a, (![0, 0, 0, 0, 24] : Fin 5 → Nat) a + S1x1x128x256x1.size a ≤ S1x1x128x256x25.size a
  inb_S1x1x128x256_S1x1x128x256_0_0_0_0 : ∀ a, (![0, 0, 0, 0] : Fin 4 → Nat) a + S1x1x128x256.size a ≤ S1x1x128x256.size a
  h_S1x1x128x256 : 0 < S1x1x128x256.numel
  shapeCasts_S1x1x128x256_S128x256 : S1x1x128x256.ShapeCasts S128x256
  shapeCasts_S128x256_S1x1x128x256 : S128x256.ShapeCasts S1x1x128x256
  inb_S1x128x256_S1x128x256_0_0_0 : ∀ a, (![0, 0, 0] : Fin 3 → Nat) a + S1x128x256.size a ≤ S1x128x256.size a
  h_S1x128x256 : 0 < S1x128x256.numel
  shapeCasts_S1x128x256_S128x256 : S1x128x256.ShapeCasts S128x256
  shapeCasts_S128x256_S1x128x256 : S128x256.ShapeCasts S1x128x256
  bcast_S4x256x256_S4x256x256x1_0_1_2 : S4x256x256.BroadcastsInDim S4x256x256x1 (![0, 1, 2] : Fin 3 → Fin S4x256x256x1.rank)
  bcast_S4x8x256x256_S4x8x256x256x1_0_1_2_3 : S4x8x256x256.BroadcastsInDim S4x8x256x256x1 (![0, 1, 2, 3] : Fin 4 → Fin S4x8x256x256x1.rank)
  hrank0 : 0 < grid0.rank
  k0_mult1_dvd : ∀ i : grid0.Coords, 8 ∣ (k0_mult1 i).toNat
  k0_off1_inb : ∀ i : grid0.Coords, ∀ a, (k0_off1 i) a + S1x1x132x260.size a ≤ S1x1x260x260.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x128x256x25.size a ≤ S4x8x256x256x25.size a
  hwx0_0 : ∀ i : grid0.Coords, EltTy.bits .f32 = 32 ∨ (Rect.block (s := S4x8x256x256x25) S1x1x128x256x25.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x260x260.size a ≤ S4x8x260x260.size a
  hwx0_1 : ∀ i : grid0.Coords, EltTy.bits .f32 = 32 ∨ (Rect.block (s := S4x8x260x260) S1x1x260x260.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128x256.size a ≤ S4x8x256x256.size a
  hwx0_2 : ∀ i : grid0.Coords, EltTy.bits .f32 = 32 ∨ (Rect.block (s := S4x8x256x256) S1x1x128x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x256.size a ≤ S4x256x256.size a
  hwx0_3 : ∀ i : grid0.Coords, EltTy.bits .f32 = 32 ∨ (Rect.block (s := S4x256x256) S1x128x256.size (cc0_transform_3 i) (hinb0_3 i)).WholeWords (EltTy.packing .f32)

variable [Facts₀]

abbrev win0_0 : Pipeline.Window sig grid0 :=
  Pipeline.Window.ofSpec (Memref.whole main_v0) S1x1x128x256x25.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x1x260x260.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3_0) S1x1x128x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3_1) S1x128x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x8x256x256x1 : Shape := ⟨5, ![4, 8, 256, 256, 1]⟩
abbrev S4x256x256x200 : Shape := ⟨4, ![4, 256, 256, 200]⟩
abbrev S4x8x256x256x1x25 : Shape := ⟨6, ![4, 8, 256, 256, 1, 25]⟩
abbrev S_ : Shape := ⟨0, ![]⟩
abbrev S4x8x260x260x1 : Shape := ⟨5, ![4, 8, 260, 260, 1]⟩
abbrev S4x8x256x256x1x1 : Shape := ⟨6, ![4, 8, 256, 256, 1, 1]⟩
abbrev S4x8x256x256x1x16 : Shape := ⟨6, ![4, 8, 256, 256, 1, 16]⟩
abbrev S4x8x256x256x1x9 : Shape := ⟨6, ![4, 8, 256, 256, 1, 9]⟩
abbrev S4x256x256x1 : Shape := ⟨4, ![4, 256, 256, 1]⟩

abbrev nBuf : Space → Nat
  | .hbm => 67
  | .vmem => 0
  | .smem => 0
  | _ => 0

abbrev bufTy : (tb : Table) → Fin (tcTables nBuf tb) → BufTy
  | .hbm, ⟨0, _⟩ => ⟨S4x8x256x256x1, .f32⟩
  | .hbm, ⟨1, _⟩ => ⟨S4x256x256x200, .f32⟩
  | .hbm, ⟨2, _⟩ => ⟨S4x8x256x256x1x25, .f32⟩
  | .hbm, ⟨3, _⟩ => ⟨S_, .i32⟩
  | .hbm, ⟨4, _⟩ => ⟨S_, .f32⟩
  | .hbm, ⟨5, _⟩ => ⟨S4x8x260x260x1, .f32⟩
  | .hbm, ⟨6, _⟩ => ⟨S4x8x256x256x1, .f32⟩
  | .hbm, ⟨7, _⟩ => ⟨S4x8x256x256x1, .f32⟩
  | .hbm, ⟨8, _⟩ => ⟨S4x8x256x256x1, .f32⟩
  | .hbm, ⟨9, _⟩ => ⟨S4x8x256x256x1, .f32⟩
  | .hbm, ⟨10, _⟩ => ⟨S4x8x256x256x1, .f32⟩
  | .hbm, ⟨11, _⟩ => ⟨S4x8x256x256x1, .f32⟩
  | .hbm, ⟨12, _⟩ => ⟨S4x8x256x256x1, .f32⟩
  | .hbm, ⟨13, _⟩ => ⟨S4x8x256x256x1, .f32⟩
  | .hbm, ⟨14, _⟩ => ⟨S4x8x256x256x1, .f32⟩
  | .hbm, ⟨15, _⟩ => ⟨S4x8x256x256x1, .f32⟩
  | .hbm, ⟨16, _⟩ => ⟨S4x8x256x256x1, .f32⟩
  | .hbm, ⟨17, _⟩ => ⟨S4x8x256x256x1, .f32⟩
  | .hbm, ⟨18, _⟩ => ⟨S4x8x256x256x1, .f32⟩
  | .hbm, ⟨19, _⟩ => ⟨S4x8x256x256x1, .f32⟩
  | .hbm, ⟨20, _⟩ => ⟨S4x8x256x256x1, .f32⟩
  | .hbm, ⟨21, _⟩ => ⟨S4x8x256x256x1, .f32⟩
  | .hbm, ⟨22, _⟩ => ⟨S4x8x256x256x1, .f32⟩
  | .hbm, ⟨23, _⟩ => ⟨S4x8x256x256x1, .f32⟩
  | .hbm, ⟨24, _⟩ => ⟨S4x8x256x256x1, .f32⟩
  | .hbm, ⟨25, _⟩ => ⟨S4x8x256x256x1, .f32⟩
  | .hbm, ⟨26, _⟩ => ⟨S4x8x256x256x1, .f32⟩
  | .hbm, ⟨27, _⟩ => ⟨S4x8x256x256x1, .f32⟩
  | .hbm, ⟨28, _⟩ => ⟨S4x8x256x256x1, .f32⟩
  | .hbm, ⟨29, _⟩ => ⟨S4x8x256x256x1, .f32⟩
  | .hbm, ⟨30, _⟩ => ⟨S4x8x256x256x1, .f32⟩
  | .hbm, ⟨31, _⟩ => ⟨S4x8x256x256x1x1, .f32⟩
  | .hbm, ⟨32, _⟩ => ⟨S4x8x256x256x1x1, .f32⟩
  | .hbm, ⟨33, _⟩ => ⟨S4x8x256x256x1x1, .f32⟩
  | .hbm, ⟨34, _⟩ => ⟨S4x8x256x256x1x1, .f32⟩
  | .hbm, ⟨35, _⟩ => ⟨S4x8x256x256x1x1, .f32⟩
  | .hbm, ⟨36, _⟩ => ⟨S4x8x256x256x1x1, .f32⟩
  | .hbm, ⟨37, _⟩ => ⟨S4x8x256x256x1x1, .f32⟩
  | .hbm, ⟨38, _⟩ => ⟨S4x8x256x256x1x1, .f32⟩
  | .hbm, ⟨39, _⟩ => ⟨S4x8x256x256x1x1, .f32⟩
  | .hbm, ⟨40, _⟩ => ⟨S4x8x256x256x1x1, .f32⟩
  | .hbm, ⟨41, _⟩ => ⟨S4x8x256x256x1x1, .f32⟩
  | .hbm, ⟨42, _⟩ => ⟨S4x8x256x256x1x1, .f32⟩
  | .hbm, ⟨43, _⟩ => ⟨S4x8x256x256x1x1, .f32⟩
  | .hbm, ⟨44, _⟩ => ⟨S4x8x256x256x1x1, .f32⟩
  | .hbm, ⟨45, _⟩ => ⟨S4x8x256x256x1x1, .f32⟩
  | .hbm, ⟨46, _⟩ => ⟨S4x8x256x256x1x1, .f32⟩
  | .hbm, ⟨47, _⟩ => ⟨S4x8x256x256x1x1, .f32⟩
  | .hbm, ⟨48, _⟩ => ⟨S4x8x256x256x1x1, .f32⟩
  | .hbm, ⟨49, _⟩ => ⟨S4x8x256x256x1x1, .f32⟩
  | .hbm, ⟨50, _⟩ => ⟨S4x8x256x256x1x1, .f32⟩
  | .hbm, ⟨51, _⟩ => ⟨S4x8x256x256x1x1, .f32⟩
  | .hbm, ⟨52, _⟩ => ⟨S4x8x256x256x1x1, .f32⟩
  | .hbm, ⟨53, _⟩ => ⟨S4x8x256x256x1x1, .f32⟩
  | .hbm, ⟨54, _⟩ => ⟨S4x8x256x256x1x1, .f32⟩
  | .hbm, ⟨55, _⟩ => ⟨S4x8x256x256x1x1, .f32⟩
  | .hbm, ⟨56, _⟩ => ⟨S4x8x256x256x1x16, .f32⟩
  | .hbm, ⟨57, _⟩ => ⟨S4x8x256x256x1x9, .f32⟩
  | .hbm, ⟨58, _⟩ => ⟨S4x8x256x256x1x25, .f32⟩
  | .hbm, ⟨59, _⟩ => ⟨S4x8x256x256x1x25, .f32⟩
  | .hbm, ⟨60, _⟩ => ⟨S_, .f32⟩
  | .hbm, ⟨61, _⟩ => ⟨S4x8x256x256x1, .f32⟩
  | .hbm, ⟨62, _⟩ => ⟨S_, .f32⟩
  | .hbm, ⟨63, _⟩ => ⟨S4x256x256x1, .f32⟩
  | .hbm, ⟨64, _⟩ => ⟨S_, .f32⟩
  | .hbm, ⟨65, _⟩ => ⟨S4x256x256x1, .f32⟩
  | .hbm, ⟨66, _⟩ => ⟨S4x256x256x1, .f32⟩
  | _, _ => ⟨S4x8x256x256x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩
abbrev main_v52 : Ref sig .tc := ⟨.hbm, 56, rfl⟩
abbrev main_v53 : Ref sig .tc := ⟨.hbm, 57, rfl⟩
abbrev main_v54 : Ref sig .tc := ⟨.hbm, 58, rfl⟩
abbrev main_v55 : Ref sig .tc := ⟨.hbm, 59, rfl⟩
abbrev main_cst : Ref sig .tc := ⟨.hbm, 60, rfl⟩
abbrev main_v56 : Ref sig .tc := ⟨.hbm, 61, rfl⟩
abbrev main_cst_0 : Ref sig .tc := ⟨.hbm, 62, rfl⟩
abbrev main_v57 : Ref sig .tc := ⟨.hbm, 63, rfl⟩
abbrev main_cst_1 : Ref sig .tc := ⟨.hbm, 64, rfl⟩
abbrev main_v58 : Ref sig .tc := ⟨.hbm, 65, rfl⟩
abbrev main_v59 : Ref sig .tc := ⟨.hbm, 66, rfl⟩

abbrev nD : Nat := 1
abbrev τ : Topo := Topo.v7x

variable {F : FTy → Type} [FloatOps F]

class Facts₀ : Prop where
  shapeCasts_S4x256x256x200_S4x8x256x256x1x25 : S4x256x256x200.ShapeCasts S4x8x256x256x1x25
  pads_S4x8x256x256x1_S4x8x260x260x1_000_000_220_220_000 : S4x8x256x256x1.Pads (![0, 0, 2, 2, 0] : Fin 5 → Nat) ![0, 0, 2, 2, 0] ![0, 0, 0, 0, 0] S4x8x260x260x1
  h_S_ : 0 < S_.numel
  slices_S4x8x260x260x1_S4x8x256x256x1_0_0_0_0_0 : S4x8x260x260x1.Slices ![0, 0, 0, 0, 0] S4x8x256x256x1
  slices_S4x8x260x260x1_S4x8x256x256x1_0_0_0_1_0 : S4x8x260x260x1.Slices ![0, 0, 0, 1, 0] S4x8x256x256x1
  slices_S4x8x260x260x1_S4x8x256x256x1_0_0_0_2_0 : S4x8x260x260x1.Slices ![0, 0, 0, 2, 0] S4x8x256x256x1
  slices_S4x8x260x260x1_S4x8x256x256x1_0_0_0_3_0 : S4x8x260x260x1.Slices ![0, 0, 0, 3, 0] S4x8x256x256x1
  slices_S4x8x260x260x1_S4x8x256x256x1_0_0_0_4_0 : S4x8x260x260x1.Slices ![0, 0, 0, 4, 0] S4x8x256x256x1
  slices_S4x8x260x260x1_S4x8x256x256x1_0_0_1_0_0 : S4x8x260x260x1.Slices ![0, 0, 1, 0, 0] S4x8x256x256x1
  slices_S4x8x260x260x1_S4x8x256x256x1_0_0_1_1_0 : S4x8x260x260x1.Slices ![0, 0, 1, 1, 0] S4x8x256x256x1
  slices_S4x8x260x260x1_S4x8x256x256x1_0_0_1_2_0 : S4x8x260x260x1.Slices ![0, 0, 1, 2, 0] S4x8x256x256x1
  slices_S4x8x260x260x1_S4x8x256x256x1_0_0_1_3_0 : S4x8x260x260x1.Slices ![0, 0, 1, 3, 0] S4x8x256x256x1
  slices_S4x8x260x260x1_S4x8x256x256x1_0_0_1_4_0 : S4x8x260x260x1.Slices ![0, 0, 1, 4, 0] S4x8x256x256x1
  slices_S4x8x260x260x1_S4x8x256x256x1_0_0_2_0_0 : S4x8x260x260x1.Slices ![0, 0, 2, 0, 0] S4x8x256x256x1
  slices_S4x8x260x260x1_S4x8x256x256x1_0_0_2_1_0 : S4x8x260x260x1.Slices ![0, 0, 2, 1, 0] S4x8x256x256x1
  slices_S4x8x260x260x1_S4x8x256x256x1_0_0_2_2_0 : S4x8x260x260x1.Slices ![0, 0, 2, 2, 0] S4x8x256x256x1
  slices_S4x8x260x260x1_S4x8x256x256x1_0_0_2_3_0 : S4x8x260x260x1.Slices ![0, 0, 2, 3, 0] S4x8x256x256x1
  slices_S4x8x260x260x1_S4x8x256x256x1_0_0_2_4_0 : S4x8x260x260x1.Slices ![0, 0, 2, 4, 0] S4x8x256x256x1
  slices_S4x8x260x260x1_S4x8x256x256x1_0_0_3_0_0 : S4x8x260x260x1.Slices ![0, 0, 3, 0, 0] S4x8x256x256x1
  slices_S4x8x260x260x1_S4x8x256x256x1_0_0_3_1_0 : S4x8x260x260x1.Slices ![0, 0, 3, 1, 0] S4x8x256x256x1
  slices_S4x8x260x260x1_S4x8x256x256x1_0_0_3_2_0 : S4x8x260x260x1.Slices ![0, 0, 3, 2, 0] S4x8x256x256x1
  slices_S4x8x260x260x1_S4x8x256x256x1_0_0_3_3_0 : S4x8x260x260x1.Slices ![0, 0, 3, 3, 0] S4x8x256x256x1
  slices_S4x8x260x260x1_S4x8x256x256x1_0_0_3_4_0 : S4x8x260x260x1.Slices ![0, 0, 3, 4, 0] S4x8x256x256x1
  slices_S4x8x260x260x1_S4x8x256x256x1_0_0_4_0_0 : S4x8x260x260x1.Slices ![0, 0, 4, 0, 0] S4x8x256x256x1
  slices_S4x8x260x260x1_S4x8x256x256x1_0_0_4_1_0 : S4x8x260x260x1.Slices ![0, 0, 4, 1, 0] S4x8x256x256x1
  slices_S4x8x260x260x1_S4x8x256x256x1_0_0_4_2_0 : S4x8x260x260x1.Slices ![0, 0, 4, 2, 0] S4x8x256x256x1
  slices_S4x8x260x260x1_S4x8x256x256x1_0_0_4_3_0 : S4x8x260x260x1.Slices ![0, 0, 4, 3, 0] S4x8x256x256x1
  slices_S4x8x260x260x1_S4x8x256x256x1_0_0_4_4_0 : S4x8x260x260x1.Slices ![0, 0, 4, 4, 0] S4x8x256x256x1
  bcast_S4x8x256x256x1_S4x8x256x256x1x1_0_1_2_3_4 : S4x8x256x256x1.BroadcastsInDim S4x8x256x256x1x1 (![0, 1, 2, 3, 4] : Fin 5 → Fin S4x8x256x256x1x1.rank)
  concatenates_S4x8x256x256x1x1_S4x8x256x256x1x1_S4x8x256x256x1x1_S4x8x256x256x1x1_S4x8x256x256x1x1_S4x8x256x256x1x1_S4x8x256x256x1x1_S4x8x256x256x1x1_S4x8x256x256x1x1_S4x8x256x256x1x1_S4x8x256x256x1x1_S4x8x256x256x1x1_S4x8x256x256x1x1_S4x8x256x256x1x1_S4x8x256x256x1x1_S4x8x256x256x1x1_S4x8x256x256x1x16_d5 : Shape.Concatenates [S4x8x256x256x1x1, S4x8x256x256x1x1, S4x8x256x256x1x1, S4x8x256x256x1x1, S4x8x256x256x1x1, S4x8x256x256x1x1, S4x8x256x256x1x1, S4x8x256x256x1x1, S4x8x256x256x1x1, S4x8x256x256x1x1, S4x8x256x256x1x1, S4x8x256x256x1x1, S4x8x256x256x1x1, S4x8x256x256x1x1, S4x8x256x256x1x1, S4x8x256x256x1x1] S4x8x256x256x1x16 5
  concatenates_S4x8x256x256x1x1_S4x8x256x256x1x1_S4x8x256x256x1x1_S4x8x256x256x1x1_S4x8x256x256x1x1_S4x8x256x256x1x1_S4x8x256x256x1x1_S4x8x256x256x1x1_S4x8x256x256x1x1_S4x8x256x256x1x9_d5 : Shape.Concatenates [S4x8x256x256x1x1, S4x8x256x256x1x1, S4x8x256x256x1x1, S4x8x256x256x1x1, S4x8x256x256x1x1, S4x8x256x256x1x1, S4x8x256x256x1x1, S4x8x256x256x1x1, S4x8x256x256x1x1] S4x8x256x256x1x9 5
  concatenates_S4x8x256x256x1x16_S4x8x256x256x1x9_S4x8x256x256x1x25_d5 : Shape.Concatenates [S4x8x256x256x1x16, S4x8x256x256x1x9] S4x8x256x256x1x25 5
  reducesTo_S4x8x256x256x1x25_S4x8x256x256x1_d5 : S4x8x256x256x1x25.ReducesTo [5] S4x8x256x256x1
  reducesTo_S4x8x256x256x1_S4x256x256x1_d1 : S4x8x256x256x1.ReducesTo [1] S4x256x256x1
  bcast_S_S4x256x256x1 : S_.BroadcastsInDim S4x256x256x1 (![] : Fin 0 → Fin S4x256x256x1.rank)

variable [Facts₀]

class Facts : Prop extends Facts₀ where

variable [Facts]
-- ==== Proof.Spec.lean ====
/-
  The mathematics both programs compute, stated once over the two argument arrays and no program.

  A burst of eight frames per batch entry is filtered by a kernel-prediction network's output: every pixel of every
  frame carries its own 5 × 5 filter, and the filtered pixel is the sum, over the 25 taps, of the pixel's weight for
  the tap times the frame's value at the tap's position in the frame padded by two zeros on every side of its two
  image axes. The weights arrive as f32[4, 256, 256, 200] and are read through the row-major reinterpretation
  [4, 8, 256, 256, 25] (frame, row, column, tap): weight `k` of frame `n` at pixel `(y, x)` is the entry at row-major
  position `((n·256 + y)·256 + x)·25 + k` of the batch entry's 256·256·200 weights. The first result is the filtered
  burst; the second its mean over the eight frames.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The burst of frames: batch, frame, row, column, one channel. -/
abbrev SFr : Shape := ⟨5, ![4, 8, 256, 256, 1]⟩
/-- The per-pixel filter weights: batch, row, column, 200 = 8 frames × 25 taps, as they arrive. -/
abbrev SCo : Shape := ⟨4, ![4, 256, 256, 200]⟩
/-- The mean over the burst: batch, row, column, one channel. -/
abbrev SMean : Shape := ⟨4, ![4, 256, 256, 1]⟩

/-- The row-major position, inside one batch entry's weights, of tap `k` of frame `n` at pixel `(y, x)`. -/
def wpos (n : Fin 8) (y x : Fin 256) (k : Fin 25) : ℕ := ((n.val * 256 + y.val) * 256 + x.val) * 25 + k.val

theorem wpos_lt (n : Fin 8) (y x : Fin 256) (k : Fin 25) : wpos n y x k < 13107200 := by
  unfold wpos; have := n.isLt; have := y.isLt; have := x.isLt; have := k.isLt; omega

/-- The index of that weight in the weights array as it arrives. -/
def widx (b : Fin 4) (n : Fin 8) (y x : Fin 256) (k : Fin 25) : SCo.Idx :=
  ix4 b ⟨wpos n y x k / 51200, by have := wpos_lt n y x k; omega⟩ ⟨wpos n y x k / 200 % 256, by omega⟩
    ⟨wpos n y x k % 200, by omega⟩

/-- Frame `n` of batch entry `b`, padded by two zeros on every side of its rows and of its columns, at row `Y` and
    column `X` of the padded frame (a 260 × 260 image; zero also wherever `Y` or `X` is past it). -/
def padded (fr : SFr.Idx → EReal) (b : Fin 4) (n : Fin 8) (Y X : ℕ) : EReal :=
  if h : (2 ≤ Y ∧ Y < 258) ∧ (2 ≤ X ∧ X < 258) then
    fr (ix5 b n (⟨Y - 2, by omega⟩ : Fin 256) (⟨X - 2, by omega⟩ : Fin 256) (0 : Fin 1))
  else 0

/-- One tap: the pixel's weight for tap `k` times the padded frame `k / 5` rows down and `k % 5` columns right. -/
def tap (fr : SFr.Idx → EReal) (co : SCo.Idx → EReal) (b : Fin 4) (n : Fin 8) (y x : Fin 256) (k : Fin 25) : EReal :=
  co (widx b n y x k) * padded fr b n (y.val + k.val / 5) (x.val + k.val % 5)

/-- The filtered pixel: the 25 taps summed. -/
def filtered (fr : SFr.Idx → EReal) (co : SCo.Idx → EReal) (b : Fin 4) (n : Fin 8) (y x : Fin 256) : EReal :=
  ∑ k : Fin 25, tap fr co b n y x k

/-- The first result's array: the filtered burst. -/
def burst (fr : SFr.Idx → EReal) (co : SCo.Idx → EReal) : SFr.Idx → EReal :=
  fun i => filtered fr co (i 0) (i 1) (i 2) (i 3)

/-- The sum of the filtered pixel over the eight frames. -/
def summed (fr : SFr.Idx → EReal) (co : SCo.Idx → EReal) (b : Fin 4) (y x : Fin 256) : EReal :=
  ∑ n : Fin 8, filtered fr co b n y x

/-- The second result's array: the burst's mean, the sum over the frames divided by `8.0` (the float's pattern, which
    denotes the real 8: `ofBits_eight` below). -/
def mean (fr : SFr.Idx → EReal) (co : SCo.Idx → EReal) : SMean.Idx → EReal :=
  fun i => Ideal.div (summed fr co (i 0) (i 1) (i 2)) (Ideal.ofBits .f32 0x41000000#32)

/-! ## Two facts about sums and one about the division by eight -/

/-- Twenty-five terms added one after the other onto `z`, first to last, are `z` plus their sum: addition of
    extended reals is associative. -/
theorem chain25 (z : EReal) (T : Fin 25 → EReal) :
    z + T 0 + T 1 + T 2 + T 3 + T 4 + T 5 + T 6 + T 7 + T 8 + T 9 + T 10 + T 11 + T 12 + T 13 + T 14 + T 15 + T 16
      + T 17 + T 18 + T 19 + T 20 + T 21 + T 22 + T 23 + T 24 = z + ∑ k : Fin 25, T k := by
  simp only [Fin.sum_univ_castSucc, Fin.sum_univ_zero, zero_add, add_assoc]
  rfl

/-- The pattern of `8.0` denotes the real 8, -/
theorem ofBits_eight : Ideal.ofBits .f32 0x41000000#32 = ((8 : ℝ) : EReal) := by
  simp [Ideal.ofBits, Ideal.ieee, -EReal.coe_mul]; norm_num

/-- the pattern of `0.125` the real 1/8, -/
theorem ofBits_eighth : Ideal.ofBits .f32 0x3E000000#32 = ((1 / 8 : ℝ) : EReal) := by
  simp [Ideal.ofBits, Ideal.ieee, -EReal.coe_mul]; norm_num

/-- so multiplying by `0.125` is dividing by `8.0`, on every extended real. -/
theorem mul_eighth (x : EReal) :
    x * Ideal.ofBits .f32 0x3E000000#32 = Ideal.div x (Ideal.ofBits .f32 0x41000000#32) := by
  rw [ofBits_eight, ofBits_eighth, Ideal.div_coe (by norm_num : (8 : ℝ) ≠ 0)]

end Cert.Spec

end
-- ==== Proof.KTaps.lean ====
/-
  The body's arithmetic at one pixel of its block.

  The body holds a 132 × 260 window of the padded frame — the block's 128 rows and the four rows below them, every
  column — and for tap `k` (`k / 5` rows down, `k % 5` columns right) multiplies the pixel's weight for the tap by
  the window's entry at the shifted position; the 25 products are added one after the other onto zero. Read at pixel
  `(r, l)` of the block, what it leaves is zero plus the 25 terms in order.
-/
import proofs.«178553_j88347477279305_2_alg».proof.Proof.Gen.KernelIdeal.Skeleton
import proofs.«178553_j88347477279305_2_alg».proof.Proof.Spec
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.KernelIdeal.Taps

open Cert.KernelIdeal Cert.KernelIdeal.Gen

/-- A [1, 1, 128, 256, 1] vector cast to [128, 256], at pixel `(r, l)`: the entry at `(0, 0, r, l, 0)`. -/
theorem cast_tap {α : Type} (u : S1x1x128x256x1.Idx → α) (h : S1x1x128x256x1.ShapeCasts S128x256) (r : Fin 128)
    (l : Fin 256) : shapeCast S128x256 u h (ix2 r l) = u (ix5 (0 : Fin 1) (0 : Fin 1) r l (0 : Fin 1)) :=
  shapeCast_apply u h (ix2 r l) (ix5 (0 : Fin 1) (0 : Fin 1) r l (0 : Fin 1)) (by
    rw [Shape.rowMajor_val_five, Shape.rowMajor_val_two]
    show ((((0 * 1 + 0) * 128 + r.val) * 256 + l.val) * 1 + 0 = r.val * 256 + l.val)
    omega)

/-- One term: the weight of tap `k` at pixel `(r, l)` of the weights' block times the window `k / 5` rows down and
    `k % 5` columns right of the pixel. -/
def tt (x0 : Vec Ideal S1x1x128x256x25 .f32) (w : FVec Ideal S132x260 .f32) (r : Fin 128) (l : Fin 256)
    (k : Fin 25) : EReal :=
  x0 (ix5 (0 : Fin 1) (0 : Fin 1) r l k)
    * w (ix2 (⟨r.val + k.val / 5, by have := r.isLt; have := k.isLt; omega⟩ : Fin 132)
        (⟨l.val + k.val % 5, by have := l.isLt; have := k.isLt; omega⟩ : Fin 260))

/-- The product the body forms for tap `k` — the weights loaded at lane `k` and cast, times the window sliced at
    `(i, j) = (k / 5, k % 5)` — read at pixel `(r, l)`, is that term. -/
theorem tap_at (x0 : Vec Ideal S1x1x128x256x25 .f32) (w : FVec Ideal S132x260 .f32) (k i j : ℕ) (hk : k < 25)
    (hi : i = k / 5) (hj : j = k % 5)
    {inb : ∀ a, (![0, 0, 0, 0, k] : Fin 5 → ℕ) a + (![1, 1, 128, 256, 1] : Fin 5 → ℕ) a ≤ S1x1x128x256x25.size a}
    {hs : S132x260.Slices ![i, j] S128x256} {hc : S1x1x128x256x1.ShapeCasts S128x256} (r : Fin 128) (l : Fin 256) :
    mulf (shapeCast S128x256 (View.ld x0 (Rect.unit ![0, 0, 0, 0, k] ![1, 1, 128, 256, 1] inb)) hc)
        (extractStridedSlice S128x256 ![i, j] w hs) (ix2 r l) = tt x0 w r l ⟨k, hk⟩ := by
  subst hi hj
  unfold tt
  rw [mulf_apply, cast_tap]
  refine congrArg₂ (· * ·) ?_ ?_
  · show x0 _ = x0 _
    refine congrArg x0 (funext fun a => Fin.ext ?_)
    match a with
    | ⟨0, _⟩ => rfl
    | ⟨1, _⟩ => rfl
    | ⟨2, _⟩ => show 0 + 1 * r.val = r.val; omega
    | ⟨3, _⟩ => show 0 + 1 * l.val = l.val; omega
    | ⟨4, _⟩ => show k + 1 * 0 = k; omega
  · refine extractStridedSlice_apply _ w hs (ix2 r l) _ fun a => ?_
    match a with
    | ⟨0, _⟩ => show r.val + k / 5 = k / 5 + r.val; omega
    | ⟨1, _⟩ => show l.val + k % 5 = k % 5 + l.val; omega

/-- The first four taps, onto zero. -/
theorem pay7_at (x0 : Vec Ideal S1x1x128x256x25 .f32) (v6 : Vec Ideal S1x1x132x260 .f32) (r : Fin 128) (l : Fin 256) :
    k0_pay7 v6 (View.ld x0 (Rect.unit ![0, 0, 0, 0, 0] ![1, 1, 128, 256, 1] inb_S1x1x128x256x25_S1x1x128x256x1_0_0_0_0_0))
      (View.ld x0 (Rect.unit ![0, 0, 0, 0, 1] ![1, 1, 128, 256, 1] inb_S1x1x128x256x25_S1x1x128x256x1_0_0_0_0_1))
      (View.ld x0 (Rect.unit ![0, 0, 0, 0, 2] ![1, 1, 128, 256, 1] inb_S1x1x128x256x25_S1x1x128x256x1_0_0_0_0_2))
      (View.ld x0 (Rect.unit ![0, 0, 0, 0, 3] ![1, 1, 128, 256, 1] inb_S1x1x128x256x25_S1x1x128x256x1_0_0_0_0_3)) (ix2 r l)
      = Ideal.ofBits .f32 0x00000000#32 + tt x0 (k0_pay6 v6) r l 0 + tt x0 (k0_pay6 v6) r l 1 + tt x0 (k0_pay6 v6) r l 2 + tt x0 (k0_pay6 v6) r l 3 := by
  unfold k0_pay7
  simp only [addf_apply]
  rw [tap_at x0 (k0_pay6 v6) 0 0 0 (by decide) rfl rfl,
    tap_at x0 (k0_pay6 v6) 1 0 1 (by decide) rfl rfl,
    tap_at x0 (k0_pay6 v6) 2 0 2 (by decide) rfl rfl,
    tap_at x0 (k0_pay6 v6) 3 0 3 (by decide) rfl rfl]
  rfl

/-- Taps 4 to 9, onto what the taps before them left. -/
theorem pay8_at (x0 : Vec Ideal S1x1x128x256x25 .f32) (w : FVec Ideal S132x260 .f32) (acc : FVec Ideal S128x256 .f32)
    (r : Fin 128) (l : Fin 256) :
    k0_pay8 w acc (View.ld x0 (Rect.unit ![0, 0, 0, 0, 4] ![1, 1, 128, 256, 1] inb_S1x1x128x256x25_S1x1x128x256x1_0_0_0_0_4))
      (View.ld x0 (Rect.unit ![0, 0, 0, 0, 5] ![1, 1, 128, 256, 1] inb_S1x1x128x256x25_S1x1x128x256x1_0_0_0_0_5))
      (View.ld x0 (Rect.unit ![0, 0, 0, 0, 6] ![1, 1, 128, 256, 1] inb_S1x1x128x256x25_S1x1x128x256x1_0_0_0_0_6))
      (View.ld x0 (Rect.unit ![0, 0, 0, 0, 7] ![1, 1, 128, 256, 1] inb_S1x1x128x256x25_S1x1x128x256x1_0_0_0_0_7))
      (View.ld x0 (Rect.unit ![0, 0, 0, 0, 8] ![1, 1, 128, 256, 1] inb_S1x1x128x256x25_S1x1x128x256x1_0_0_0_0_8))
      (View.ld x0 (Rect.unit ![0, 0, 0, 0, 9] ![1, 1, 128, 256, 1] inb_S1x1x128x256x25_S1x1x128x256x1_0_0_0_0_9)) (ix2 r l)
      = acc (ix2 r l) + tt x0 w r l 4 + tt x0 w r l 5 + tt x0 w r l 6 + tt x0 w r l 7 + tt x0 w r l 8 + tt x0 w r l 9 := by
  unfold k0_pay8
  simp only [addf_apply]
  rw [tap_at x0 w 4 0 4 (by decide) rfl rfl,
    tap_at x0 w 5 1 0 (by decide) rfl rfl,
    tap_at x0 w 6 1 1 (by decide) rfl rfl,
    tap_at x0 w 7 1 2 (by decide) rfl rfl,
    tap_at x0 w 8 1 3 (by decide) rfl rfl,
    tap_at x0 w 9 1 4 (by decide) rfl rfl]
  rfl

/-- Taps 10 to 15, onto what the taps before them left. -/
theorem pay9_at (x0 : Vec Ideal S1x1x128x256x25 .f32) (w : FVec Ideal S132x260 .f32) (acc : FVec Ideal S128x256 .f32)
    (r : Fin 128) (l : Fin 256) :
    k0_pay9 w acc (View.ld x0 (Rect.unit ![0, 0, 0, 0, 10] ![1, 1, 128, 256, 1] inb_S1x1x128x256x25_S1x1x128x256x1_0_0_0_0_10))
      (View.ld x0 (Rect.unit ![0, 0, 0, 0, 11] ![1, 1, 128, 256, 1] inb_S1x1x128x256x25_S1x1x128x256x1_0_0_0_0_11))
      (View.ld x0 (Rect.unit ![0, 0, 0, 0, 12] ![1, 1, 128, 256, 1] inb_S1x1x128x256x25_S1x1x128x256x1_0_0_0_0_12))
      (View.ld x0 (Rect.unit ![0, 0, 0, 0, 13] ![1, 1, 128, 256, 1] inb_S1x1x128x256x25_S1x1x128x256x1_0_0_0_0_13))
      (View.ld x0 (Rect.unit ![0, 0, 0, 0, 14] ![1, 1, 128, 256, 1] inb_S1x1x128x256x25_S1x1x128x256x1_0_0_0_0_14))
      (View.ld x0 (Rect.unit ![0, 0, 0, 0, 15] ![1, 1, 128, 256, 1] inb_S1x1x128x256x25_S1x1x128x256x1_0_0_0_0_15)) (ix2 r l)
      = acc (ix2 r l) + tt x0 w r l 10 + tt x0 w r l 11 + tt x0 w r l 12 + tt x0 w r l 13 + tt x0 w r l 14 + tt x0 w r l 15 := by
  unfold k0_pay9
  simp only [addf_apply]
  rw [tap_at x0 w 10 2 0 (by decide) rfl rfl,
    tap_at x0 w 11 2 1 (by decide) rfl rfl,
    tap_at x0 w 12 2 2 (by decide) rfl rfl,
    tap_at x0 w 13 2 3 (by decide) rfl rfl,
    tap_at x0 w 14 2 4 (by decide) rfl rfl,
    tap_at x0 w 15 3 0 (by decide) rfl rfl]
  rfl

/-- Taps 16 to 21, onto what the taps before them left. -/
theorem pay10_at (x0 : Vec Ideal S1x1x128x256x25 .f32) (w : FVec Ideal S132x260 .f32) (acc : FVec Ideal S128x256 .f32)
    (r : Fin 128) (l : Fin 256) :
    k0_pay10 w acc (View.ld x0 (Rect.unit ![0, 0, 0, 0, 16] ![1, 1, 128, 256, 1] inb_S1x1x128x256x25_S1x1x128x256x1_0_0_0_0_16))
      (View.ld x0 (Rect.unit ![0, 0, 0, 0, 17] ![1, 1, 128, 256, 1] inb_S1x1x128x256x25_S1x1x128x256x1_0_0_0_0_17))
      (View.ld x0 (Rect.unit ![0, 0, 0, 0, 18] ![1, 1, 128, 256, 1] inb_S1x1x128x256x25_S1x1x128x256x1_0_0_0_0_18))
      (View.ld x0 (Rect.unit ![0, 0, 0, 0, 19] ![1, 1, 128, 256, 1] inb_S1x1x128x256x25_S1x1x128x256x1_0_0_0_0_19))
      (View.ld x0 (Rect.unit ![0, 0, 0, 0, 20] ![1, 1, 128, 256, 1] inb_S1x1x128x256x25_S1x1x128x256x1_0_0_0_0_20))
      (View.ld x0 (Rect.unit ![0, 0, 0, 0, 21] ![1, 1, 128, 256, 1] inb_S1x1x128x256x25_S1x1x128x256x1_0_0_0_0_21)) (ix2 r l)
      = acc (ix2 r l) + tt x0 w r l 16 + tt x0 w r l 17 + tt x0 w r l 18 + tt x0 w r l 19 + tt x0 w r l 20 + tt x0 w r l 21 := by
  unfold k0_pay10
  simp only [addf_apply]
  rw [tap_at x0 w 16 3 1 (by decide) rfl rfl,
    tap_at x0 w 17 3 2 (by decide) rfl rfl,
    tap_at x0 w 18 3 3 (by decide) rfl rfl,
    tap_at x0 w 19 3 4 (by decide) rfl rfl,
    tap_at x0 w 20 4 0 (by decide) rfl rfl,
    tap_at x0 w 21 4 1 (by decide) rfl rfl]
  rfl

/-- Taps 22 to 24, onto what the taps before them left. -/
theorem pay1_at (x0 : Vec Ideal S1x1x128x256x25 .f32) (w : FVec Ideal S132x260 .f32) (acc : FVec Ideal S128x256 .f32)
    (r : Fin 128) (l : Fin 256) :
    k0_pay1 w acc (View.ld x0 (Rect.unit ![0, 0, 0, 0, 22] ![1, 1, 128, 256, 1] inb_S1x1x128x256x25_S1x1x128x256x1_0_0_0_0_22))
      (View.ld x0 (Rect.unit ![0, 0, 0, 0, 23] ![1, 1, 128, 256, 1] inb_S1x1x128x256x25_S1x1x128x256x1_0_0_0_0_23))
      (View.ld x0 (Rect.unit ![0, 0, 0, 0, 24] ![1, 1, 128, 256, 1] inb_S1x1x128x256x25_S1x1x128x256x1_0_0_0_0_24)) (ix2 r l)
      = acc (ix2 r l) + tt x0 w r l 22 + tt x0 w r l 23 + tt x0 w r l 24 := by
  unfold k0_pay1
  simp only [addf_apply]
  rw [tap_at x0 w 22 4 2 (by decide) rfl rfl,
    tap_at x0 w 23 4 3 (by decide) rfl rfl,
    tap_at x0 w 24 4 4 (by decide) rfl rfl]
  rfl

/-- What the body adds up at a point: the 25 products over the window it loaded from the padded frame's block `x1`
    (`v6`) and the weights' block `x0`. -/
def localSum (x0 : Vec Ideal S1x1x128x256x25 .f32) (v6 : Vec Ideal S1x1x132x260 .f32) : FVec Ideal S128x256 .f32 :=
  k0_pay1 (k0_pay6 v6)
    (k0_pay10 (k0_pay6 v6)
      (k0_pay9 (k0_pay6 v6)
        (k0_pay8 (k0_pay6 v6)
          (k0_pay7 v6 (View.ld x0 (Rect.unit ![0, 0, 0, 0, 0] ![1, 1, 128, 256, 1] inb_S1x1x128x256x25_S1x1x128x256x1_0_0_0_0_0))
            (View.ld x0 (Rect.unit ![0, 0, 0, 0, 1] ![1, 1, 128, 256, 1] inb_S1x1x128x256x25_S1x1x128x256x1_0_0_0_0_1))
            (View.ld x0 (Rect.unit ![0, 0, 0, 0, 2] ![1, 1, 128, 256, 1] inb_S1x1x128x256x25_S1x1x128x256x1_0_0_0_0_2))
            (View.ld x0 (Rect.unit ![0, 0, 0, 0, 3] ![1, 1, 128, 256, 1] inb_S1x1x128x256x25_S1x1x128x256x1_0_0_0_0_3)))
          (View.ld x0 (Rect.unit ![0, 0, 0, 0, 4] ![1, 1, 128, 256, 1] inb_S1x1x128x256x25_S1x1x128x256x1_0_0_0_0_4))
          (View.ld x0 (Rect.unit ![0, 0, 0, 0, 5] ![1, 1, 128, 256, 1] inb_S1x1x128x256x25_S1x1x128x256x1_0_0_0_0_5))
          (View.ld x0 (Rect.unit ![0, 0, 0, 0, 6] ![1, 1, 128, 256, 1] inb_S1x1x128x256x25_S1x1x128x256x1_0_0_0_0_6))
          (View.ld x0 (Rect.unit ![0, 0, 0, 0, 7] ![1, 1, 128, 256, 1] inb_S1x1x128x256x25_S1x1x128x256x1_0_0_0_0_7))
          (View.ld x0 (Rect.unit ![0, 0, 0, 0, 8] ![1, 1, 128, 256, 1] inb_S1x1x128x256x25_S1x1x128x256x1_0_0_0_0_8))
          (View.ld x0 (Rect.unit ![0, 0, 0, 0, 9] ![1, 1, 128, 256, 1] inb_S1x1x128x256x25_S1x1x128x256x1_0_0_0_0_9)))
        (View.ld x0 (Rect.unit ![0, 0, 0, 0, 10] ![1, 1, 128, 256, 1] inb_S1x1x128x256x25_S1x1x128x256x1_0_0_0_0_10))
        (View.ld x0 (Rect.unit ![0, 0, 0, 0, 11] ![1, 1, 128, 256, 1] inb_S1x1x128x256x25_S1x1x128x256x1_0_0_0_0_11))
        (View.ld x0 (Rect.unit ![0, 0, 0, 0, 12] ![1, 1, 128, 256, 1] inb_S1x1x128x256x25_S1x1x128x256x1_0_0_0_0_12))
        (View.ld x0 (Rect.unit ![0, 0, 0, 0, 13] ![1, 1, 128, 256, 1] inb_S1x1x128x256x25_S1x1x128x256x1_0_0_0_0_13))
        (View.ld x0 (Rect.unit ![0, 0, 0, 0, 14] ![1, 1, 128, 256, 1] inb_S1x1x128x256x25_S1x1x128x256x1_0_0_0_0_14))
        (View.ld x0 (Rect.unit ![0, 0, 0, 0, 15] ![1, 1, 128, 256, 1] inb_S1x1x128x256x25_S1x1x128x256x1_0_0_0_0_15)))
      (View.ld x0 (Rect.unit ![0, 0, 0, 0, 16] ![1, 1, 128, 256, 1] inb_S1x1x128x256x25_S1x1x128x256x1_0_0_0_0_16))
      (View.ld x0 (Rect.unit ![0, 0, 0, 0, 17] ![1, 1, 128, 256, 1] inb_S1x1x128x256x25_S1x1x128x256x1_0_0_0_0_17))
      (View.ld x0 (Rect.unit ![0, 0, 0, 0, 18] ![1, 1, 128, 256, 1] inb_S1x1x128x256x25_S1x1x128x256x1_0_0_0_0_18))
      (View.ld x0 (Rect.unit ![0, 0, 0, 0, 19] ![1, 1, 128, 256, 1] inb_S1x1x128x256x25_S1x1x128x256x1_0_0_0_0_19))
      (View.ld x0 (Rect.unit ![0, 0, 0, 0, 20] ![1, 1, 128, 256, 1] inb_S1x1x128x256x25_S1x1x128x256x1_0_0_0_0_20))
      (View.ld x0 (Rect.unit ![0, 0, 0, 0, 21] ![1, 1, 128, 256, 1] inb_S1x1x128x256x25_S1x1x128x256x1_0_0_0_0_21)))
    (View.ld x0 (Rect.unit ![0, 0, 0, 0, 22] ![1, 1, 128, 256, 1] inb_S1x1x128x256x25_S1x1x128x256x1_0_0_0_0_22))
    (View.ld x0 (Rect.unit ![0, 0, 0, 0, 23] ![1, 1, 128, 256, 1] inb_S1x1x128x256x25_S1x1x128x256x1_0_0_0_0_23))
    (View.ld x0 (Rect.unit ![0, 0, 0, 0, 24] ![1, 1, 128, 256, 1] inb_S1x1x128x256x25_S1x1x128x256x1_0_0_0_0_24))

/-- At pixel `(r, l)` it is zero plus the 25 terms: their sum (addition of extended reals is associative). -/
theorem localSum_at (x0 : Vec Ideal S1x1x128x256x25 .f32) (v6 : Vec Ideal S1x1x132x260 .f32) (r : Fin 128) (l : Fin 256) :
    localSum x0 v6 (ix2 r l) = ∑ k : Fin 25, tt x0 (k0_pay6 v6) r l k := by
  unfold localSum
  rw [pay1_at, pay10_at, pay9_at, pay8_at, pay7_at, Ideal.ofBits_zero_f32]
  exact (Cert.Spec.chain25 0 (tt x0 (k0_pay6 v6) r l)).trans (zero_add _)

end Cert.KernelIdeal.Taps

end
-- ==== Proof.KBody.lean ====
/-
  What each control case of the body leaves in its buffers, as values.

  At every point the body writes the 25-tap sum of its blocks (`Taps.localSum`) into the first output's block. The
  scratch accumulator is zeroed at the first frame of a tile and then receives the sum; at the other frames it
  receives what it held plus the sum; at the last frame the second output's block receives the accumulator times
  0.125.
-/
import proofs.«178553_j88347477279305_2_alg».proof.Proof.Gen.KernelIdeal.Frame
import proofs.«178553_j88347477279305_2_alg».proof.Proof.KTaps
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Body

open Cert.KernelIdeal Cert.KernelIdeal.Gen Cert.KernelIdeal.Taps

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The 132 rows of the padded frame's block the body loads at a point: from row 128 · (the tile's number) down. -/
def win6 (i : grid0.Coords) (x1 : Vec Ideal S1x1x260x260 .f32) : Vec Ideal S1x1x132x260 .f32 :=
  View.ld x1 (Rect.unit (k0_off1 i) ![1, 1, 132, 260] (k0_off1_inb i))

/-- The accumulator's zero block. -/
abbrev zeros : FVec Ideal S128x256 .f32 := broadcast S128x256 (Scalar.ofBits .f32 0x00000000#32)

/-- A middle frame: the scratch accumulator ends at what it held plus the point's sum. -/
theorem scratch_B (c : Dev nD) (i : grid0.Coords) (a3 : Memref sig .tc .vmem S1x1x128x256x25 .f32) (h3 : a3.IsWhole)
    (a4 : Memref sig .tc .vmem S1x1x260x260 .f32) (h4 : a4.IsWhole) (a5 : Memref sig .tc .vmem S1x1x128x256 .f32)
    (h5 : a5.IsWhole) (a6 : Memref sig .tc .vmem S1x128x256 .f32) (h6 : a6.IsWhole)
    (a7 : Memref sig .tc .vmem S128x256 .f32) (h7 : a7.IsWhole) (hc0 : ¬cond0_0 i) (hc1 : ¬cond0_1 i)
    (x0 : Vec Ideal S1x1x128x256x25 .f32) (x1 : Vec Ideal S1x1x260x260 .f32) (xs0 : Vec Ideal S128x256 .f32) :
    sout0_B_0 c i a3 h3 a4 h4 a5 h5 a6 h6 a7 h7 hc0 hc1 x0 x1 xs0 = addf xs0 (localSum x0 (win6 i x1)) := by
  unfold sout0_B_0
  rw [View.read_writes_eq_canon _ _ _ (scover0_B_0 c i a3 h3 a4 h4 a5 h5 a6 h6 a7 h7 hc0 hc1 x0 x1 xs0)]
  unfold kernelRun0_B
  dsimp only
  sl_unfold_words
  rw [View.canon_unit_zero hz2]
  simp only [View.readAt_eq_ld, h3.read_unread, h4.read_unread, h7.read_unread, View.ld_unit_zero (S := S128x256) hz2]
  unfold k0_pay3
  simp only [shapeCast_self]
  rfl

/-- A middle frame: the first output's block ends at the point's sum. -/
theorem out_B (c : Dev nD) (i : grid0.Coords) (a3 : Memref sig .tc .vmem S1x1x128x256x25 .f32) (h3 : a3.IsWhole)
    (a4 : Memref sig .tc .vmem S1x1x260x260 .f32) (h4 : a4.IsWhole) (a5 : Memref sig .tc .vmem S1x1x128x256 .f32)
    (h5 : a5.IsWhole) (a6 : Memref sig .tc .vmem S1x128x256 .f32) (h6 : a6.IsWhole)
    (a7 : Memref sig .tc .vmem S128x256 .f32) (h7 : a7.IsWhole) (hc0 : ¬cond0_0 i) (hc1 : ¬cond0_1 i)
    (x0 : Vec Ideal S1x1x128x256x25 .f32) (x1 : Vec Ideal S1x1x260x260 .f32) (xs0 : Vec Ideal S128x256 .f32) :
    out0_B_2 c i a3 h3 a4 h4 a5 h5 a6 h6 a7 h7 hc0 hc1 x0 x1 xs0
      = shapeCast S1x1x128x256 (localSum x0 (win6 i x1)) shapeCasts_S128x256_S1x1x128x256 := by
  unfold out0_B_2
  rw [View.read_writes_eq_canon _ _ _ (cover0_B_2 c i a3 h3 a4 h4 a5 h5 a6 h6 a7 h7 hc0 hc1 x0 x1 xs0)]
  unfold kernelRun0_B
  dsimp only
  sl_unfold_words
  rw [View.canon_unit_zero hz4]
  simp only [View.readAt_eq_ld, h3.read_unread, h4.read_unread]
  rfl

/-- The last frame: the scratch accumulator as at a middle frame, -/
theorem scratch_C (c : Dev nD) (i : grid0.Coords) (a3 : Memref sig .tc .vmem S1x1x128x256x25 .f32) (h3 : a3.IsWhole)
    (a4 : Memref sig .tc .vmem S1x1x260x260 .f32) (h4 : a4.IsWhole) (a5 : Memref sig .tc .vmem S1x1x128x256 .f32)
    (h5 : a5.IsWhole) (a6 : Memref sig .tc .vmem S1x128x256 .f32) (h6 : a6.IsWhole)
    (a7 : Memref sig .tc .vmem S128x256 .f32) (h7 : a7.IsWhole) (hc0 : ¬cond0_0 i) (hc1 : cond0_1 i)
    (x0 : Vec Ideal S1x1x128x256x25 .f32) (x1 : Vec Ideal S1x1x260x260 .f32) (xs0 : Vec Ideal S128x256 .f32) :
    sout0_C_0 c i a3 h3 a4 h4 a5 h5 a6 h6 a7 h7 hc0 hc1 x0 x1 xs0 = addf xs0 (localSum x0 (win6 i x1)) := by
  unfold sout0_C_0
  rw [View.read_writes_eq_canon _ _ _ (scover0_C_0 c i a3 h3 a4 h4 a5 h5 a6 h6 a7 h7 hc0 hc1 x0 x1 xs0)]
  unfold kernelRun0_C
  dsimp only
  sl_unfold_words
  rw [View.canon_unit_zero hz2]
  simp only [View.readAt_eq_ld, h3.read_unread, h4.read_unread, h7.read_unread, View.ld_unit_zero (S := S128x256) hz2]
  unfold k0_pay3
  simp only [shapeCast_self]
  rfl

/-- the first output's block too, -/
theorem out_C (c : Dev nD) (i : grid0.Coords) (a3 : Memref sig .tc .vmem S1x1x128x256x25 .f32) (h3 : a3.IsWhole)
    (a4 : Memref sig .tc .vmem S1x1x260x260 .f32) (h4 : a4.IsWhole) (a5 : Memref sig .tc .vmem S1x1x128x256 .f32)
    (h5 : a5.IsWhole) (a6 : Memref sig .tc .vmem S1x128x256 .f32) (h6 : a6.IsWhole)
    (a7 : Memref sig .tc .vmem S128x256 .f32) (h7 : a7.IsWhole) (hc0 : ¬cond0_0 i) (hc1 : cond0_1 i)
    (x0 : Vec Ideal S1x1x128x256x25 .f32) (x1 : Vec Ideal S1x1x260x260 .f32) (xs0 : Vec Ideal S128x256 .f32) :
    out0_C_2 c i a3 h3 a4 h4 a5 h5 a6 h6 a7 h7 hc0 hc1 x0 x1 xs0
      = shapeCast S1x1x128x256 (localSum x0 (win6 i x1)) shapeCasts_S128x256_S1x1x128x256 := by
  unfold out0_C_2
  rw [View.read_writes_eq_canon _ _ _ (cover0_C_2 c i a3 h3 a4 h4 a5 h5 a6 h6 a7 h7 hc0 hc1 x0 x1 xs0)]
  unfold kernelRun0_C
  dsimp only
  sl_unfold_words
  rw [View.canon_unit_zero hz4]
  simp only [View.readAt_eq_ld, h3.read_unread, h4.read_unread]
  rfl

/-- and the second output's block ends at the accumulator's new contents times 0.125. -/
theorem mean_C (c : Dev nD) (i : grid0.Coords) (a3 : Memref sig .tc .vmem S1x1x128x256x25 .f32) (h3 : a3.IsWhole)
    (a4 : Memref sig .tc .vmem S1x1x260x260 .f32) (h4 : a4.IsWhole) (a5 : Memref sig .tc .vmem S1x1x128x256 .f32)
    (h5 : a5.IsWhole) (a6 : Memref sig .tc .vmem S1x128x256 .f32) (h6 : a6.IsWhole)
    (a7 : Memref sig .tc .vmem S128x256 .f32) (h7 : a7.IsWhole) (hc0 : ¬cond0_0 i) (hc1 : cond0_1 i)
    (x0 : Vec Ideal S1x1x128x256x25 .f32) (x1 : Vec Ideal S1x1x260x260 .f32) (xs0 : Vec Ideal S128x256 .f32) :
    out0_C_3 c i a3 h3 a4 h4 a5 h5 a6 h6 a7 h7 hc0 hc1 x0 x1 xs0 = k0_pay4 (addf xs0 (localSum x0 (win6 i x1))) := by
  unfold out0_C_3
  rw [View.read_writes_eq_canon _ _ _ (cover0_C_3 c i a3 h3 a4 h4 a5 h5 a6 h6 a7 h7 hc0 hc1 x0 x1 xs0)]
  unfold kernelRun0_C
  dsimp only
  sl_unfold_words
  rw [View.canon_unit_zero hz3, View.readCov_unit_zero (S := S128x256) _ hz2]
  simp only [View.readAt_eq_ld, h3.read_unread, h4.read_unread, h7.read_unread, View.ld_unit_zero (S := S128x256) hz2]
  unfold k0_pay3
  simp only [shapeCast_self]
  rfl

/-- The first frame of a tile: the scratch accumulator ends at zero plus the point's sum, -/
theorem scratch_A (c : Dev nD) (i : grid0.Coords) (a3 : Memref sig .tc .vmem S1x1x128x256x25 .f32) (h3 : a3.IsWhole)
    (a4 : Memref sig .tc .vmem S1x1x260x260 .f32) (h4 : a4.IsWhole) (a5 : Memref sig .tc .vmem S1x1x128x256 .f32)
    (h5 : a5.IsWhole) (a6 : Memref sig .tc .vmem S1x128x256 .f32) (h6 : a6.IsWhole)
    (a7 : Memref sig .tc .vmem S128x256 .f32) (h7 : a7.IsWhole) (hc0 : cond0_0 i) (hc1 : ¬cond0_1 i)
    (x0 : Vec Ideal S1x1x128x256x25 .f32) (x1 : Vec Ideal S1x1x260x260 .f32) :
    sout0_A_0 c i a3 h3 a4 h4 a5 h5 a6 h6 a7 h7 hc0 hc1 x0 x1 = addf zeros (localSum x0 (win6 i x1)) := by
  unfold sout0_A_0
  rw [View.read_writes_eq_canon _ _ _ (scover0_A_0 c i a3 h3 a4 h4 a5 h5 a6 h6 a7 h7 hc0 hc1 x0 x1)]
  unfold kernelRun0_A
  dsimp only
  sl_unfold_words
  rw [View.canon_cons_unit_zero (S := S128x256) hz2, View.readCov_unit_zero (S := S128x256) _ hz2]
  simp only [View.readAt_eq_ld, h3.read_unread, h4.read_unread]
  unfold k0_pay3 k0_pay5
  simp only [shapeCast_self]
  rfl

/-- and the first output's block at the point's sum. -/
theorem out_A (c : Dev nD) (i : grid0.Coords) (a3 : Memref sig .tc .vmem S1x1x128x256x25 .f32) (h3 : a3.IsWhole)
    (a4 : Memref sig .tc .vmem S1x1x260x260 .f32) (h4 : a4.IsWhole) (a5 : Memref sig .tc .vmem S1x1x128x256 .f32)
    (h5 : a5.IsWhole) (a6 : Memref sig .tc .vmem S1x128x256 .f32) (h6 : a6.IsWhole)
    (a7 : Memref sig .tc .vmem S128x256 .f32) (h7 : a7.IsWhole) (hc0 : cond0_0 i) (hc1 : ¬cond0_1 i)
    (x0 : Vec Ideal S1x1x128x256x25 .f32) (x1 : Vec Ideal S1x1x260x260 .f32) :
    out0_A_2 c i a3 h3 a4 h4 a5 h5 a6 h6 a7 h7 hc0 hc1 x0 x1
      = shapeCast S1x1x128x256 (localSum x0 (win6 i x1)) shapeCasts_S128x256_S1x1x128x256 := by
  unfold out0_A_2
  rw [View.read_writes_eq_canon _ _ _ (cover0_A_2 c i a3 h3 a4 h4 a5 h5 a6 h6 a7 h7 hc0 hc1 x0 x1)]
  unfold kernelRun0_A
  dsimp only
  sl_unfold_words
  rw [View.canon_unit_zero hz4]
  simp only [View.readAt_eq_ld, h3.read_unread, h4.read_unread]
  rfl

end Cert.KernelIdeal.Body

end
-- ==== Proof.KHost.lean ====
/-
  The kernel program's host operations before its region, read at an index.

  Before the region is entered the program reshapes the weights [4, 256, 256, 200] to [4, 8, 256, 256, 25]
  (a row-major reinterpretation), reshapes the frames [4, 8, 256, 256, 1] to [4, 8, 256, 256] (dropping the
  unit channel axis) and pads the result by two zeros on every side of its two image axes, to [4, 8, 260, 260].
  The two arrays the region reads are therefore, entry by entry, the weights at the row-major position of the
  specification, and the frame padded by two zeros as the specification pads it.
-/
import proofs.«178553_j88347477279305_2_alg».proof.Proof.Gen.KernelIdeal.Frame.Runs
import proofs.«178553_j88347477279305_2_alg».proof.Proof.Spec
import Idealize.ShloMosaic.Lib.Pipeline.Value
import Idealize.ShloMosaic.Lib.KernelVsHost
import Idealize.ShloMosaic.Lib.ValueIdx
import Idealize.ShloMosaic.Lib.StableHlo.Run
import Idealize.ShloMosaic.PureOps.Ideal.Laws

noncomputable section

namespace Cert.KernelIdeal.HostValue

open Idealize.ShloMosaic Idealize.ShloMosaic.TcCoe Idealize.ShloMosaic.ValueIdx
open Cert.KernelIdeal Cert.KernelIdeal.Gen

variable (m : (ℓ : Loc nD τ sig) → Buf (Elt Ideal) ℓ) (c : Dev nD)

/-! ## The two arrays as terms of the arguments -/

/-- The weights array the region reads is the weights argument reshaped. -/
theorem weights_eq :
    (V m c main_v0 : S4x8x256x256x25.Idx → EReal)
      = shapeCast S4x8x256x256x25 (m ((c : Thread nD τ).loc main_arg1) : S4x256x256x200.Idx → EReal)
          Gen.shapeCasts_S4x256x256x200_S4x8x256x256x25 := by
  dsimp only [V, V0]
  simp only [hostOps0, hostOps0_1, List.flatten_cons, List.flatten_nil, List.append_nil, List.cons_append,
    List.nil_append]
  after_results
  rfl

/-- The frame array the region reads is the frames argument reshaped to drop its unit axis, then padded by two on
    every side of its last two axes with the integer zero converted to a float. -/
theorem frame_eq :
    (V m c main_v2 : S4x8x260x260.Idx → EReal)
      = pad S4x8x260x260 ![0, 0, 2, 2] ![0, 0, 2, 2] ![0, 0, 0, 0]
          (shapeCast S4x8x256x256 (m ((c : Thread nD τ).loc main_arg0) : S4x8x256x256x1.Idx → EReal)
            Gen.shapeCasts_S4x8x256x256x1_S4x8x256x256)
          (sitofp (F := Ideal) .f32 (constantI S_ 32 0#32))
          Gen.pads_S4x8x256x256_S4x8x260x260_000_000_220_220 Gen.h_S_ := by
  dsimp only [V, V0]
  simp only [hostOps0, hostOps0_1, List.flatten_cons, List.flatten_nil, List.append_nil, List.cons_append,
    List.nil_append]
  after_results
  rfl

/-! ## Read at an index -/

/-- Entry `(b, n, y, x, k)` of the reshaped weights is the weights argument at the index with the same row-major
    position: `b`, then the position `((n·256 + y)·256 + x)·25 + k` inside the batch entry split into its row,
    column and channel. -/
theorem weights_apply (b : Fin 4) (n : Fin 8) (y x : Fin 256) (k : Fin 25) :
    (V m c main_v0 : S4x8x256x256x25.Idx → EReal) (ix5 b n y x k)
      = m ((c : Thread nD τ).loc main_arg1) (Cert.Spec.widx b n y x k) := by
  rw [weights_eq]
  refine shapeCast_apply _ _ (ix5 b n y x k) (Cert.Spec.widx b n y x k) ?_
  rw [Shape.rowMajor_val_four, Shape.rowMajor_val_five]
  have hb := b.isLt; have hn := n.isLt; have hy := y.isLt; have hx := x.isLt; have hk := k.isLt
  show ((b.val * 256 + Cert.Spec.wpos n y x k / 51200) * 256 + Cert.Spec.wpos n y x k / 200 % 256) * 200
      + Cert.Spec.wpos n y x k % 200 = (((b.val * 8 + n.val) * 256 + y.val) * 256 + x.val) * 25 + k.val
  unfold Cert.Spec.wpos
  omega

/-- The padding value, the integer zero converted to a float, is the real zero. -/
theorem pad_value :
    (sitofp (F := Ideal) .f32 (constantI S_ 32 0#32) : S_.Idx → EReal) (Shape.Idx.first Gen.h_S_) = 0 := by
  show (((0#32 : BitVec 32).toInt : ℝ) : EReal) = 0
  simp

/-- Entry `(b, n, Y, X)` of the padded frames is the frame at `(b, n, Y − 2, X − 2)` when both `Y` and `X` lie in
    `[2, 258)`, and zero in the border of width two. -/
theorem frame_apply (b : Fin 4) (n : Fin 8) (Y X : Fin 260) :
    (V m c main_v2 : S4x8x260x260.Idx → EReal) (ix4 b n Y X)
      = Cert.Spec.padded (m ((c : Thread nD τ).loc main_arg0)) b n Y.val X.val := by
  rw [frame_eq]
  unfold Cert.Spec.padded
  split
  · rename_i h
    refine (pad_apply_of_inside _ _ _ _ _ _ _ (ix4 b n Y X)
      (ix4 b n (⟨Y.val - 2, by omega⟩ : Fin 256) (⟨X.val - 2, by omega⟩ : Fin 256)) ?_).trans ?_
    · intro a
      match a with
      | ⟨0, _⟩ => show b.val = 0 + b.val * (0 + 1); omega
      | ⟨1, _⟩ => show n.val = 0 + n.val * (0 + 1); omega
      | ⟨2, _⟩ => show Y.val = 2 + (Y.val - 2) * (0 + 1); omega
      | ⟨3, _⟩ => show X.val = 2 + (X.val - 2) * (0 + 1); omega
    · refine shapeCast_apply _ _ _
        (ix5 b n (⟨Y.val - 2, by omega⟩ : Fin 256) (⟨X.val - 2, by omega⟩ : Fin 256) (0 : Fin 1)) ?_
      rw [Shape.rowMajor_val_five, Shape.rowMajor_val_four]
      show (((b.val * 8 + n.val) * 256 + (Y.val - 2)) * 256 + (X.val - 2)) * 1 + 0
        = ((b.val * 8 + n.val) * 256 + (Y.val - 2)) * 256 + (X.val - 2)
      omega
  · rename_i h
    by_cases hY : 2 ≤ Y.val ∧ Y.val < 258
    · refine (pad_apply_of_not_inside _ _ _ _ _ _ _ (ix4 b n Y X) (3 : Fin 4) ?_).trans (pad_value)
      show ¬(2 ≤ X.val ∧ (X.val - 2) % (0 + 1) = 0 ∧ (X.val - 2) / (0 + 1) < 256)
      omega
    · refine (pad_apply_of_not_inside _ _ _ _ _ _ _ (ix4 b n Y X) (2 : Fin 4) ?_).trans (pad_value)
      show ¬(2 ≤ Y.val ∧ (Y.val - 2) % (0 + 1) = 0 ∧ (Y.val - 2) / (0 + 1) < 256)
      omega

end Cert.KernelIdeal.HostValue

end
-- ==== Proof.KTile.lean ====
/-
  The body's values point by point.

  The grid's 64 points run over batch entry `b`, tile `h` (rows 128·h … 128·h + 127) and frame `n`, the frame fastest:
  point `t` is `(t / 16, t / 8 % 2, t % 8)`. At point `t` the weights' block is the tile's rows of frame `n`'s weights
  and the frame's block is the whole padded frame `n`, so the body's 25-tap sum at pixel `(r, l)` of the tile is the
  filtered pixel `(128·h + r, l)` of frame `n`; the scratch accumulator, zeroed at `n = 0`, holds after frame `n` the
  sum of the filtered pixels of frames `0 … n`.
-/
import proofs.«178553_j88347477279305_2_alg».proof.Proof.Gen.KernelIdeal.Frame
import proofs.«178553_j88347477279305_2_alg».proof.Proof.KBody
import proofs.«178553_j88347477279305_2_alg».proof.Proof.KHost
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Tiles

open Cert.KernelIdeal Cert.KernelIdeal.Gen Cert.KernelIdeal.Taps Cert.KernelIdeal.Body

variable (m : (ℓ : Loc nD τ sig) → Buf (Elt Ideal) ℓ) (c : Dev nD)

/-- The two argument arrays: the frames and the weights. -/
abbrev fr : Cert.Spec.SFr.Idx → EReal := m ((c : Thread nD τ).loc main_arg0)
abbrev co : Cert.Spec.SCo.Idx → EReal := m ((c : Thread nD τ).loc main_arg1)

theorem lt64 (t : Fin cfg0.N) : t.val < 64 := lt_of_lt_of_eq t.isLt N_0

/-- Point `n`'s batch entry, frame, and the row of the image its tile's row `r` is. -/
def bq (n : ℕ) : Fin 4 := ⟨n / 16 % 4, by omega⟩
def nq (n : ℕ) : Fin 8 := ⟨n % 8, by omega⟩
def yq (n : ℕ) (r : Fin 128) : Fin 256 := ⟨128 * (n / 8 % 2) + r.val, by have := r.isLt; omega⟩

/-! ## The printed index maps, decided over the grid -/

theorem idx0 : ∀ t : Fin cfg0.N, win0_0.index t (0 : Fin 5) = t.val / 16 ∧ win0_0.index t (1 : Fin 5) = t.val % 8
    ∧ win0_0.index t (2 : Fin 5) = t.val / 8 % 2 ∧ win0_0.index t (3 : Fin 5) = 0 ∧ win0_0.index t (4 : Fin 5) = 0 :=
  (by decide +kernel : ∀ t : Fin grid0.N, _)
theorem idx1 : ∀ t : Fin cfg0.N, win0_1.index t (0 : Fin 4) = t.val / 16 ∧ win0_1.index t (1 : Fin 4) = t.val % 8
    ∧ win0_1.index t (2 : Fin 4) = 0 ∧ win0_1.index t (3 : Fin 4) = 0 :=
  (by decide +kernel : ∀ t : Fin grid0.N, _)
/-- The first row of the window the body loads: the tile's first row. -/
theorem off1 : ∀ t : Fin cfg0.N, k0_off1 (grid0.coords t) (2 : Fin 4) = 128 * (t.val / 8 % 2) :=
  (by decide +kernel : ∀ t : Fin grid0.N, _)

/-! ## The blocks -/

/-- The weights' block at a point: the tile's rows of the frame's weights. -/
theorem weights_block (t : Fin cfg0.N) (r : Fin 128) (l : Fin 256) (k : Fin 25) :
    (iblk m c 0 t : Vec Ideal S1x1x128x256x25 .f32) (ix5 (0 : Fin 1) (0 : Fin 1) r l k)
      = co m c (Cert.Spec.widx (bq t.val) (nq t.val) (yq t.val r) l k) := by
  refine Eq.trans ?_ (HostValue.weights_apply m c (bq t.val) (nq t.val) (yq t.val r) l k)
  unfold iblk
  rw [View.read_apply]
  show V m c main_v0 _ = V m c main_v0 _
  obtain ⟨e0, e1, e2, e3, e4⟩ := idx0 t
  have hN := lt64 t
  refine congrArg (V m c main_v0) (funext fun a => Fin.ext ?_)
  match a with
  | ⟨0, _⟩ => show win0_0.index t (0 : Fin 5) * 1 + 1 * 0 = t.val / 16 % 4; omega
  | ⟨1, _⟩ => show win0_0.index t (1 : Fin 5) * 1 + 1 * 0 = t.val % 8; omega
  | ⟨2, _⟩ => show win0_0.index t (2 : Fin 5) * 128 + 1 * r.val = 128 * (t.val / 8 % 2) + r.val; omega
  | ⟨3, _⟩ => show win0_0.index t (3 : Fin 5) * 256 + 1 * l.val = l.val; omega
  | ⟨4, _⟩ => show win0_0.index t (4 : Fin 5) * 25 + 1 * k.val = k.val; omega

/-- The frame's block at a point: the whole padded frame. -/
theorem frame_block (t : Fin cfg0.N) (Y X : Fin 260) :
    (iblk m c 1 t : Vec Ideal S1x1x260x260 .f32) (ix4 (0 : Fin 1) (0 : Fin 1) Y X)
      = Cert.Spec.padded (fr m c) (bq t.val) (nq t.val) Y.val X.val := by
  refine Eq.trans ?_ (HostValue.frame_apply m c (bq t.val) (nq t.val) Y X)
  unfold iblk
  rw [View.read_apply]
  show V m c main_v2 _ = V m c main_v2 _
  obtain ⟨e0, e1, e2, e3⟩ := idx1 t
  have hN := lt64 t
  refine congrArg (V m c main_v2) (funext fun a => Fin.ext ?_)
  match a with
  | ⟨0, _⟩ => show win0_1.index t (0 : Fin 4) * 1 + 1 * 0 = t.val / 16 % 4; omega
  | ⟨1, _⟩ => show win0_1.index t (1 : Fin 4) * 1 + 1 * 0 = t.val % 8; omega
  | ⟨2, _⟩ => show win0_1.index t (2 : Fin 4) * 260 + 1 * Y.val = Y.val; omega
  | ⟨3, _⟩ => show win0_1.index t (3 : Fin 4) * 260 + 1 * X.val = X.val; omega

/-- The window the body loads, cast to two axes, at `(R, L)`: the frame's block `R` rows below the window's first. -/
theorem window_at (i : grid0.Coords) (x1 : Vec Ideal S1x1x260x260 .f32) (R : Fin 132) (L : Fin 260) :
    k0_pay6 (win6 i x1) (ix2 R L)
      = x1 (ix4 (0 : Fin 1) (0 : Fin 1)
          (⟨k0_off1 i (2 : Fin 4) + R.val, by
            have h : k0_off1 i (2 : Fin 4) + 132 ≤ 260 := k0_off1_inb i (2 : Fin 4)
            have := R.isLt; omega⟩ : Fin 260) L) := by
  unfold k0_pay6
  rw [shapeCast_apply (win6 i x1) _ (ix2 R L) (ix4 (0 : Fin 1) (0 : Fin 1) R L) (by
    rw [Shape.rowMajor_val_four, Shape.rowMajor_val_two]
    show ((0 * 1 + 0) * 132 + R.val) * 260 + L.val = R.val * 260 + L.val
    omega)]
  unfold win6
  show x1 _ = x1 _
  refine congrArg x1 (funext fun a => Fin.ext ?_)
  match a with
  | ⟨0, _⟩ => rfl
  | ⟨1, _⟩ => rfl
  | ⟨2, _⟩ => show k0_off1 i (2 : Fin 4) + 1 * R.val = k0_off1 i (2 : Fin 4) + R.val; omega
  | ⟨3, _⟩ => show 0 + 1 * L.val = L.val; omega

/-- The body's 25-tap sum at a point. -/
def S (t : Fin cfg0.N) : FVec Ideal S128x256 .f32 :=
  localSum (iblk m c 0 t) (win6 (grid0.coords t) (iblk m c 1 t))

/-- At pixel `(r, l)` of the tile it is the filtered pixel of the point's frame. -/
theorem tile_sum (t : Fin cfg0.N) (r : Fin 128) (l : Fin 256) :
    S m c t (ix2 r l) = Cert.Spec.filtered (fr m c) (co m c) (bq t.val) (nq t.val) (yq t.val r) l := by
  unfold S
  refine (localSum_at (iblk m c 0 t) (win6 (grid0.coords t) (iblk m c 1 t)) r l).trans ?_
  unfold Cert.Spec.filtered
  refine Finset.sum_congr rfl fun k _ => ?_
  unfold tt Cert.Spec.tap
  refine congrArg₂ (· * ·) (weights_block m c t r l k) ?_
  refine (window_at (grid0.coords t) (iblk m c 1 t) _ _).trans ?_
  refine (frame_block m c t _ _).trans ?_
  have ho := off1 t
  refine congrArg₂ (Cert.Spec.padded (fr m c) (bq t.val) (nq t.val)) ?_ rfl
  show k0_off1 (grid0.coords t) (2 : Fin 4) + (r.val + k.val / 5) = 128 * (t.val / 8 % 2) + r.val + k.val / 5
  omega

end Cert.KernelIdeal.Tiles

end
-- ==== Proof.KAccum.lean ====
/-
  The accumulation over the eight frames of a tile.

  The scratch accumulator is carried from point to point. It is zeroed at the first frame of a tile, and after frame
  `n` holds zero plus the tile's filtered pixels of frames `0 … n`, added in that order; at the last frame the second
  output's block receives it times 0.125. The first output's block receives each point's own filtered pixels.
-/
import proofs.«178553_j88347477279305_2_alg».proof.Proof.KTile

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Tiles

open Cert.KernelIdeal Cert.KernelIdeal.Gen Cert.KernelIdeal.Taps Cert.KernelIdeal.Body

variable (m : (ℓ : Loc nD τ sig) → Buf (Elt Ideal) ℓ) (c : Dev nD)

/-- What the scratch accumulator holds after point `n`: the zero block plus the point's sum at the first frame of a tile,
    what it held plus the point's sum at the others. -/
def acc : (n : ℕ) → n < cfg0.N → FVec Ideal S128x256 .f32
  | 0, h => addf zeros (S m c ⟨0, h⟩)
  | n + 1, h => if (n + 1) % 8 = 0 then addf zeros (S m c ⟨n + 1, h⟩)
      else addf (acc n (Nat.lt_of_succ_lt h)) (S m c ⟨n + 1, h⟩)

/-- The generated point-by-point contents of the scratch accumulator are that. -/
theorem scratch_eq : ∀ (n : ℕ) (h : n < cfg0.N), (outsAt0 m c n h).2.2 = acc m c n h
  | 0, h => by
    rw [outsAt0_A m c ⟨0, h⟩ rfl (show ¬(0 : ℕ) % 8 = 7 by decide), acc]
    dsimp only
    unfold S
    exact scratch_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) scM0_0 (Memref.isWhole_whole _) _ _ (iblk m c 0 ⟨0, h⟩) (iblk m c 1 ⟨0, h⟩)
  | n + 1, h => by
    have hN : n + 1 < 64 := lt_of_lt_of_eq h N_0
    by_cases h0 : (n + 1) % 8 = 0
    · have h1 : ¬(n + 1) % 8 = 7 := by omega
      rw [outsAt0_A m c ⟨n + 1, h⟩ h0 h1, acc, if_pos h0]
      dsimp only
      unfold S
      exact scratch_A c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) _ _ (iblk m c 0 ⟨n + 1, h⟩) (iblk m c 1 ⟨n + 1, h⟩)
    · rw [acc, if_neg h0, ← scratch_eq n (Nat.lt_of_succ_lt h)]
      by_cases h1 : (n + 1) % 8 = 7
      · rw [outsAt0_C m c ⟨n + 1, h⟩ h0 h1]
        dsimp only
        unfold S
        exact scratch_C c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) _ _ (iblk m c 0 ⟨n + 1, h⟩) (iblk m c 1 ⟨n + 1, h⟩) _
      · rw [outsAt0_B m c ⟨n + 1, h⟩ h0 h1]
        dsimp only
        unfold S
        exact scratch_B c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) _ _ (iblk m c 0 ⟨n + 1, h⟩) (iblk m c 1 ⟨n + 1, h⟩) _

/-- The first output's block after point `t`: the point's sum, under two leading unit axes. -/
theorem out_eq (t : Fin cfg0.N) :
    (outsAt0 m c t.val t.isLt).1 = shapeCast S1x1x128x256 (S m c t) shapeCasts_S128x256_S1x1x128x256 := by
  have hN := lt64 t
  by_cases h0 : t.val % 8 = 0
  · have h1 : ¬t.val % 8 = 7 := by omega
    rw [outsAt0_A m c t h0 h1]
    dsimp only
    unfold S
    exact out_A c (grid0.coords t) (ms0_0 t) (hs0_0 t) (ms0_1 t) (hs0_1 t) (ms0_2 t) (hs0_2 t) (ms0_3 t) (hs0_3 t) scM0_0 (Memref.isWhole_whole _) _ _ (iblk m c 0 t) (iblk m c 1 t)
  · by_cases h1 : t.val % 8 = 7
    · rw [outsAt0_C m c t h0 h1]
      dsimp only
      unfold S
      exact out_C c (grid0.coords t) (ms0_0 t) (hs0_0 t) (ms0_1 t) (hs0_1 t) (ms0_2 t) (hs0_2 t) (ms0_3 t) (hs0_3 t) scM0_0 (Memref.isWhole_whole _) _ _ (iblk m c 0 t) (iblk m c 1 t) _
    · rw [outsAt0_B m c t h0 h1]
      dsimp only
      unfold S
      exact out_B c (grid0.coords t) (ms0_0 t) (hs0_0 t) (ms0_1 t) (hs0_1 t) (ms0_2 t) (hs0_2 t) (ms0_3 t) (hs0_3 t) scM0_0 (Memref.isWhole_whole _) _ _ (iblk m c 0 t) (iblk m c 1 t) _

/-- The second output's block after the last frame of a tile: the accumulator times 0.125. -/
theorem mean_eq (t : Fin cfg0.N) (h1 : t.val % 8 = 7) :
    (outsAt0 m c t.val t.isLt).2.1 = k0_pay4 (F := Ideal) (acc m c t.val t.isLt) := by
  have h0 : ¬t.val % 8 = 0 := by omega
  rw [← scratch_eq m c t.val t.isLt, outsAt0_C m c t h0 h1]
  dsimp only
  refine (mean_C c (grid0.coords t) (ms0_0 t) (hs0_0 t) (ms0_1 t) (hs0_1 t) (ms0_2 t) (hs0_2 t) (ms0_3 t) (hs0_3 t) scM0_0 (Memref.isWhole_whole _) _ _ (iblk m c 0 t) (iblk m c 1 t) _).trans ?_
  refine congrArg (k0_pay4 (F := Ideal)) ?_
  exact (scratch_C c (grid0.coords t) (ms0_0 t) (hs0_0 t) (ms0_1 t) (hs0_1 t) (ms0_2 t) (hs0_2 t) (ms0_3 t) (hs0_3 t) scM0_0 (Memref.isWhole_whole _) _ _ (iblk m c 0 t) (iblk m c 1 t) _).symm

/-- The filtered pixel `(128·h + r, l)` of frame `j` of point `n`'s tile (zero past the eighth frame). -/
def P (n j : ℕ) (r : Fin 128) (l : Fin 256) : EReal :=
  if h : j < 8 then Cert.Spec.filtered (fr m c) (co m c) (bq n) ⟨j, h⟩ (yq n r) l else 0

theorem P_self (n : ℕ) (r : Fin 128) (l : Fin 256) :
    P m c n (n % 8) r l = Cert.Spec.filtered (fr m c) (co m c) (bq n) (nq n) (yq n r) l := by
  unfold P; rw [dif_pos (by omega)]; rfl

/-- The frames before a point in its tile are the same tile's. -/
theorem P_succ (n j : ℕ) (h0 : ¬(n + 1) % 8 = 0) (r : Fin 128) (l : Fin 256) : P m c (n + 1) j r l = P m c n j r l := by
  unfold P
  have eb : bq (n + 1) = bq n := Fin.ext (by show (n + 1) / 16 % 4 = n / 16 % 4; omega)
  have ey : yq (n + 1) r = yq n r := Fin.ext (by show 128 * ((n + 1) / 8 % 2) + r.val = 128 * (n / 8 % 2) + r.val; omega)
  rw [eb, ey]

/-- After point `n` the accumulator holds, at pixel `(r, l)`, the sum of the filtered pixels of frames `0 … n % 8`. -/
theorem acc_at (r : Fin 128) (l : Fin 256) : ∀ (n : ℕ) (h : n < cfg0.N),
    acc m c n h (ix2 r l) = ∑ j ∈ Finset.range (n % 8 + 1), P m c n j r l
  | 0, h => by
    rw [acc, addf_apply, tile_sum]
    show Ideal.ofBits .f32 0x00000000#32 + _ = _
    rw [Ideal.ofBits_zero_f32, zero_add]
    exact ((Finset.sum_range_one _).trans (P_self m c 0 r l)).symm
  | n + 1, h => by
    by_cases h0 : (n + 1) % 8 = 0
    · rw [acc, if_pos h0, addf_apply, tile_sum]
      show Ideal.ofBits .f32 0x00000000#32 + _ = _
      rw [Ideal.ofBits_zero_f32, zero_add, h0]
      have := P_self m c (n + 1) r l
      rw [h0] at this
      exact ((Finset.sum_range_one _).trans this).symm
    · rw [acc, if_neg h0, addf_apply, acc_at r l n (Nat.lt_of_succ_lt h), tile_sum]
      have e : (n + 1) % 8 = n % 8 + 1 := by omega
      have := P_self m c (n + 1) r l
      rw [e] at this
      rw [e, Finset.sum_range_succ (fun j => P m c (n + 1) j r l) (n % 8 + 1), this]
      exact congrArg₂ (· + ·) (Finset.sum_congr rfl fun j _ => (P_succ m c n j h0 r l).symm) rfl

/-- After the last frame of a tile that is the sum over the eight frames. -/
theorem acc_last (t : Fin cfg0.N) (h1 : t.val % 8 = 7) (r : Fin 128) (l : Fin 256) :
    acc m c t.val t.isLt (ix2 r l) = Cert.Spec.summed (fr m c) (co m c) (bq t.val) (yq t.val r) l := by
  rw [acc_at m c r l t.val t.isLt, h1, Finset.sum_range]
  unfold Cert.Spec.summed
  refine Finset.sum_congr rfl fun j _ => ?_
  unfold P
  rw [dif_pos j.isLt]

end Cert.KernelIdeal.Tiles

end
-- ==== Proof.KFinal.lean ====
/-
  From the blocks to the two output arrays.

  The first output array [4, 8, 256, 256] is written back at every point: point `t` writes its block
  `(t / 16, t % 8, t / 8 % 2, 0)` of one frame's 128 rows, and what it writes is the filtered pixels of those rows. The 64
  blocks tile the array, so the array ends holding the filtered burst. The second output array [4, 256, 256] is written
  back at the last frame of each tile: point `t` with `t % 8 = 7` writes block `(t / 16, t / 8 % 2, 0)`, the sum over the
  eight frames times 0.125. The 8 such blocks tile the array, so it ends holding the summed burst times 0.125.
-/
import proofs.«178553_j88347477279305_2_alg».proof.Proof.KAccum
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Tiles

open Cert.KernelIdeal Cert.KernelIdeal.Gen Cert.KernelIdeal.Taps Cert.KernelIdeal.Body

variable (m : (ℓ : Loc nD τ sig) → Buf (Elt Ideal) ℓ) (c : Dev nD)

/-! ## The two arrays' contents as functions of the arguments -/

/-- The filtered burst, indexed as the first output array is. -/
def burstK : S4x8x256x256.Idx → EReal :=
  fun i => Cert.Spec.filtered (fr m c) (co m c) (i 0) (i 1) (i 2) (i 3)

/-- The burst summed over its frames, times 0.125, indexed as the second output array is. -/
def meanK : S4x256x256.Idx → EReal :=
  fun i => Cert.Spec.summed (fr m c) (co m c) (i 0) (i 1) (i 2) * Ideal.ofBits .f32 0x3E000000#32

/-- The burst at an index whose coordinates are given. -/
theorem burstK_at (i : S4x8x256x256.Idx) (b : Fin 4) (n : Fin 8) (y x : Fin 256)
    (h0 : (i 0).val = b.val) (h1 : (i 1).val = n.val) (h2 : (i 2).val = y.val) (h3 : (i 3).val = x.val) :
    burstK m c i = Cert.Spec.filtered (fr m c) (co m c) b n y x := by
  have e : i = ix4 b n y x := funext fun a => Fin.ext (by
    match a with
    | ⟨0, _⟩ => exact h0
    | ⟨1, _⟩ => exact h1
    | ⟨2, _⟩ => exact h2
    | ⟨3, _⟩ => exact h3)
  rw [e]
  rfl

/-- The mean at an index whose coordinates are given. -/
theorem meanK_at (i : S4x256x256.Idx) (b : Fin 4) (y x : Fin 256)
    (h0 : (i 0).val = b.val) (h1 : (i 1).val = y.val) (h2 : (i 2).val = x.val) :
    meanK m c i = Cert.Spec.summed (fr m c) (co m c) b y x * Ideal.ofBits .f32 0x3E000000#32 := by
  have e : i = ix3 b y x := funext fun a => Fin.ext (by
    match a with
    | ⟨0, _⟩ => exact h0
    | ⟨1, _⟩ => exact h1
    | ⟨2, _⟩ => exact h2)
  rw [e]
  rfl

/-! ## The output windows' index maps, decided over the grid -/

theorem idx2 : ∀ t : Fin cfg0.N, win0_2.index t (0 : Fin 4) = t.val / 16 ∧ win0_2.index t (1 : Fin 4) = t.val % 8
    ∧ win0_2.index t (2 : Fin 4) = t.val / 8 % 2 ∧ win0_2.index t (3 : Fin 4) = 0 :=
  (by decide +kernel : ∀ t : Fin grid0.N, _)
theorem idx3 : ∀ t : Fin cfg0.N, win0_3.index t (0 : Fin 3) = t.val / 16 ∧ win0_3.index t (1 : Fin 3) = t.val / 8 % 2
    ∧ win0_3.index t (2 : Fin 3) = 0 :=
  (by decide +kernel : ∀ t : Fin grid0.N, _)

/-! ## What a point leaves in the two staging buffers, entry by entry -/

/-- The first output's block after point `t`, at row `r` and column `l`: the filtered pixel of the point's frame. -/
theorem out_at (t : Fin cfg0.N) (r : Fin 128) (l : Fin 256) :
    (outsAt0 m c t.val t.isLt).1 (ix4 (0 : Fin 1) (0 : Fin 1) r l)
      = Cert.Spec.filtered (fr m c) (co m c) (bq t.val) (nq t.val) (yq t.val r) l := by
  rw [out_eq]
  refine (shapeCast_apply (S m c t) _ (ix4 (0 : Fin 1) (0 : Fin 1) r l) (ix2 r l) ?_).trans (tile_sum m c t r l)
  rw [Shape.rowMajor_val_two, Shape.rowMajor_val_four]
  show r.val * 256 + l.val = ((0 * 1 + 0) * 128 + r.val) * 256 + l.val
  omega

/-- The second output's block after the last frame of a tile, at row `r` and column `l`: the sum over the frames
    times 0.125. -/
theorem mean_at (t : Fin cfg0.N) (h1 : t.val % 8 = 7) (r : Fin 128) (l : Fin 256) :
    (outsAt0 m c t.val t.isLt).2.1 (ix3 (0 : Fin 1) r l)
      = Cert.Spec.summed (fr m c) (co m c) (bq t.val) (yq t.val r) l * Ideal.ofBits .f32 0x3E000000#32 := by
  rw [mean_eq m c t h1]
  unfold k0_pay4
  refine (shapeCast_apply _ _ (ix3 (0 : Fin 1) r l) (ix2 r l) ?_).trans ?_
  · rw [Shape.rowMajor_val_two, Shape.rowMajor_val_three]
    show r.val * 256 + l.val = (0 * 128 + r.val) * 256 + l.val
    omega
  · show acc m c t.val t.isLt (ix2 r l) * Ideal.ofBits .f32 0x3E000000#32 = _
    rw [acc_last m c t h1 r l]

/-! ## What a point writes back is its block of the array's function -/

/-- Point `t` writes back to the first output array the block of the filtered burst under it. -/
theorem flushed2_eq (t : Fin cfg0.N) :
    (dats m 0 c).flushed 2 t = ((cfg0.win 2).blk t).view.read (Elt Ideal) (burstK m c) := by
  show (cfg0.win 2).cut (grid0.coords t) ((dats m 0 c).after 2 t) = _
  rw [after0_2]
  funext j
  rw [View.read_apply]
  have h0 : (j 0).val = 0 := by have : (j 0).val < 1 := (j 0).isLt; omega
  have h1 : (j 1).val = 0 := by have : (j 1).val < 1 := (j 1).isLt; omega
  have hr : (j 2).val < 128 := (j 2).isLt
  have hl : (j 3).val < 256 := (j 3).isLt
  obtain ⟨e0, e1, e2, e3⟩ := idx2 t
  have hN := lt64 t
  have eL : (cfg0.win 2).cut (grid0.coords t) (outsAt0 m c t.val t.isLt).1 j
      = (outsAt0 m c t.val t.isLt).1 (ix4 (0 : Fin 1) (0 : Fin 1) (⟨(j 2).val, hr⟩ : Fin 128) (⟨(j 3).val, hl⟩ : Fin 256)) := by
    show (outsAt0 m c t.val t.isLt).1 _ = _
    refine congrArg (outsAt0 m c t.val t.isLt).1 (funext fun a => Fin.ext ?_)
    match a with
    | ⟨0, _⟩ => exact h0
    | ⟨1, _⟩ => exact h1
    | ⟨2, _⟩ => rfl
    | ⟨3, _⟩ => rfl
  rw [eL, out_at]
  refine (burstK_at m c _ (bq t.val) (nq t.val) (yq t.val ⟨(j 2).val, hr⟩) ⟨(j 3).val, hl⟩ ?_ ?_ ?_ ?_).symm
  · show win0_2.index t (0 : Fin 4) * 1 + 1 * (j 0).val = t.val / 16 % 4; omega
  · show win0_2.index t (1 : Fin 4) * 1 + 1 * (j 1).val = t.val % 8; omega
  · show win0_2.index t (2 : Fin 4) * 128 + 1 * (j 2).val = 128 * (t.val / 8 % 2) + (j 2).val; omega
  · show win0_2.index t (3 : Fin 4) * 256 + 1 * (j 3).val = (j 3).val; omega

/-- A point at the last frame of a tile writes back to the second output array the block of the mean under it. -/
theorem flushed3_eq (t : Fin cfg0.N) (hf : (cfg0.win 3).flush t = true) :
    (dats m 0 c).flushed 3 t = ((cfg0.win 3).blk t).view.read (Elt Ideal) (meanK m c) := by
  have h7 : t.val % 8 = 7 := (flush0_3 t).mp hf
  show (cfg0.win 3).cut (grid0.coords t) ((dats m 0 c).after 3 t) = _
  rw [after0_3]
  funext j
  rw [View.read_apply]
  have h0 : (j 0).val = 0 := by have : (j 0).val < 1 := (j 0).isLt; omega
  have hr : (j 1).val < 128 := (j 1).isLt
  have hl : (j 2).val < 256 := (j 2).isLt
  obtain ⟨e0, e1, e2⟩ := idx3 t
  have hN := lt64 t
  have eL : (cfg0.win 3).cut (grid0.coords t) (outsAt0 m c t.val t.isLt).2.1 j
      = (outsAt0 m c t.val t.isLt).2.1 (ix3 (0 : Fin 1) (⟨(j 1).val, hr⟩ : Fin 128) (⟨(j 2).val, hl⟩ : Fin 256)) := by
    show (outsAt0 m c t.val t.isLt).2.1 _ = _
    refine congrArg (outsAt0 m c t.val t.isLt).2.1 (funext fun a => Fin.ext ?_)
    match a with
    | ⟨0, _⟩ => exact h0
    | ⟨1, _⟩ => rfl
    | ⟨2, _⟩ => rfl
  rw [eL, mean_at m c t h7]
  refine (meanK_at m c _ (bq t.val) (yq t.val ⟨(j 1).val, hr⟩) ⟨(j 2).val, hl⟩ ?_ ?_ ?_).symm
  · show win0_3.index t (0 : Fin 3) * 1 + 1 * (j 0).val = t.val / 16 % 4; omega
  · show win0_3.index t (1 : Fin 3) * 128 + 1 * (j 1).val = 128 * (t.val / 8 % 2) + (j 1).val; omega
  · show win0_3.index t (2 : Fin 3) * 256 + 1 * (j 2).val = (j 2).val; omega

/-! ## Which indices a point's block holds -/

/-- An index of the first output array is in point `t`'s block iff each coordinate is in the block's range. -/
theorem mem_blk2 (t : Fin cfg0.N) (i : S4x8x256x256.Idx) :
    i ∈ ((cfg0.win 2).blk t).view.set ↔ ∀ a : Fin 4, win0_2.index t a * S1x1x128x256.size a ≤ (i a).val
      ∧ (i a).val < win0_2.index t a * S1x1x128x256.size a + S1x1x128x256.size a := by
  show i ∈ ((View.whole main_v3_0).slice (win0_2.rect t)).set ↔ _
  rw [View.set_slice_whole, Rect.mem_set_unit]
  exact Iff.rfl

/-- An index of the second output array is in point `t`'s block iff each coordinate is in the block's range. -/
theorem mem_blk3 (t : Fin cfg0.N) (i : S4x256x256.Idx) :
    i ∈ ((cfg0.win 3).blk t).view.set ↔ ∀ a : Fin 3, win0_3.index t a * S1x128x256.size a ≤ (i a).val
      ∧ (i a).val < win0_3.index t a * S1x128x256.size a + S1x128x256.size a := by
  show i ∈ ((View.whole main_v3_1).slice (win0_3.rect t)).set ↔ _
  rw [View.set_slice_whole, Rect.mem_set_unit]
  exact Iff.rfl

/-! ## The blocks tile the arrays -/

/-- Entry `(b, n, y, x)` of the first output array is in the block of point `16·b + 8·(y / 128) + n`. -/
theorem cover2 (i : S4x8x256x256.Idx) :
    ∃ t : Fin cfg0.N, (cfg0.win 2).flush t = true ∧ i ∈ ((cfg0.win 2).blk t).view.set := by
  have hi0 : (i 0).val < 4 := (i 0).isLt
  have hi1 : (i 1).val < 8 := (i 1).isLt
  have hi2 : (i 2).val < 256 := (i 2).isLt
  have hi3 : (i 3).val < 256 := (i 3).isLt
  obtain ⟨t, ht⟩ : ∃ t : Fin cfg0.N, t.val = 16 * (i 0).val + 8 * ((i 2).val / 128) + (i 1).val :=
    ⟨⟨16 * (i 0).val + 8 * ((i 2).val / 128) + (i 1).val, lt_of_lt_of_eq (by omega) N_0.symm⟩, rfl⟩
  refine ⟨t, flush0_2 t, ?_⟩
  obtain ⟨e0, e1, e2, e3⟩ := idx2 t
  rw [mem_blk2]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 1 ≤ (i 1).val ∧ (i 1).val < win0_2.index t (1 : Fin 4) * 1 + 1; omega
  | ⟨2, _⟩ => show win0_2.index t (2 : Fin 4) * 128 ≤ (i 2).val ∧ (i 2).val < win0_2.index t (2 : Fin 4) * 128 + 128; omega
  | ⟨3, _⟩ => show win0_2.index t (3 : Fin 4) * 256 ≤ (i 3).val ∧ (i 3).val < win0_2.index t (3 : Fin 4) * 256 + 256; omega

/-- Entry `(b, y, x)` of the second output array is in the block of point `16·b + 8·(y / 128) + 7`, a last frame. -/
theorem cover3 (i : S4x256x256.Idx) :
    ∃ t : Fin cfg0.N, (cfg0.win 3).flush t = true ∧ i ∈ ((cfg0.win 3).blk t).view.set := by
  have hi0 : (i 0).val < 4 := (i 0).isLt
  have hi1 : (i 1).val < 256 := (i 1).isLt
  have hi2 : (i 2).val < 256 := (i 2).isLt
  obtain ⟨t, ht⟩ : ∃ t : Fin cfg0.N, t.val = 16 * (i 0).val + 8 * ((i 1).val / 128) + 7 :=
    ⟨⟨16 * (i 0).val + 8 * ((i 1).val / 128) + 7, lt_of_lt_of_eq (by omega) N_0.symm⟩, rfl⟩
  refine ⟨t, (flush0_3 t).mpr (by omega), ?_⟩
  obtain ⟨e0, e1, e2⟩ := idx3 t
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 128 ≤ (i 1).val ∧ (i 1).val < win0_3.index t (1 : Fin 3) * 128 + 128; omega
  | ⟨2, _⟩ => show win0_3.index t (2 : Fin 3) * 256 ≤ (i 2).val ∧ (i 2).val < win0_3.index t (2 : Fin 3) * 256 + 256; omega

/-! ## The two arrays after the run -/

/-- The first output array ends holding the filtered burst. -/
theorem final_burst : (dats m 0 c).arrAt 2 cfg0.N = burstK m c :=
  (dats m 0 c).arrAt_eq_of_cover 2 (burstK m c) (fun t _ => flushed2_eq m c t) (cover2)

/-- The second output array ends holding the burst summed over its frames, times 0.125. -/
theorem final_mean : (dats m 0 c).arrAt 3 cfg0.N = meanK m c :=
  (dats m 0 c).arrAt_eq_of_cover 3 (meanK m c) (fun t hf => flushed3_eq m c t hf) (cover3)

end Cert.KernelIdeal.Tiles

end
-- ==== Proof.KTail.lean ====
/-
  The kernel program's host operations after its region.

  After the region the program gives each of the region's two result arrays a trailing unit axis: the mean
  [4, 256, 256] becomes [4, 256, 256, 1] and the filtered burst [4, 8, 256, 256] becomes [4, 8, 256, 256, 1].
  So what the two result buffers hold at the end is, entry by entry, what the region left in its two output arrays,
  read at the index with the unit coordinate dropped.
-/
import proofs.«178553_j88347477279305_2_alg».proof.Proof.Gen.KernelIdeal.Frame.Runs
import Idealize.ShloMosaic.Lib.Pipeline.FrameSuffix
import Idealize.ShloMosaic.Lib.Pipeline.Value
import Idealize.ShloMosaic.Lib.ValueIdx
import Idealize.ShloMosaic.Lib.StableHlo.Run

noncomputable section

namespace Cert.KernelIdeal.TailValue

open Idealize.ShloMosaic Idealize.ShloMosaic.TcCoe Idealize.ShloMosaic.ValueIdx
open Idealize.SL Idealize.SL.RA Idealize.SL.Sem
open Idealize.ShloMosaic.Rounds
open Idealize.ShloMosaic.Pipeline (Dat Cfg)
open Cert.KernelIdeal Cert.KernelIdeal.Gen

variable {F : FTy → Type} [FloatOps F]

/-! ## A trailing unit axis read at an index -/

/-- The burst with a trailing unit axis, at an index, is the burst at the index's first four coordinates. -/
theorem bcast_burst_apply {α : Type} (K : S4x8x256x256.Idx → α) (i : S4x8x256x256x1.Idx) :
    broadcastInDim S4x8x256x256x1 ![0, 1, 2, 3] Gen.bcast_S4x8x256x256_S4x8x256x256x1_0_1_2_3 K i
      = K (ix4 (i 0) (i 1) (i 2) (i 3)) :=
  broadcastInDim_apply _ Gen.bcast_S4x8x256x256_S4x8x256x256x1_0_1_2_3 K i (ix4 (i 0) (i 1) (i 2) (i 3))
    (fun a => match a with
      | ⟨0, _⟩ => by show (i 0).val = if (4 : Nat) = 1 then 0 else (i 0).val; rw [if_neg (by decide)]
      | ⟨1, _⟩ => by show (i 1).val = if (8 : Nat) = 1 then 0 else (i 1).val; rw [if_neg (by decide)]
      | ⟨2, _⟩ => by show (i 2).val = if (256 : Nat) = 1 then 0 else (i 2).val; rw [if_neg (by decide)]
      | ⟨3, _⟩ => by show (i 3).val = if (256 : Nat) = 1 then 0 else (i 3).val; rw [if_neg (by decide)])

/-- The mean with a trailing unit axis, at an index, is the mean at the index's first three coordinates. -/
theorem bcast_mean_apply {α : Type} (K : S4x256x256.Idx → α) (i : S4x256x256x1.Idx) :
    broadcastInDim S4x256x256x1 ![0, 1, 2] Gen.bcast_S4x256x256_S4x256x256x1_0_1_2 K i
      = K (ix3 (i 0) (i 1) (i 2)) :=
  broadcastInDim_apply _ Gen.bcast_S4x256x256_S4x256x256x1_0_1_2 K i (ix3 (i 0) (i 1) (i 2))
    (fun a => match a with
      | ⟨0, _⟩ => by show (i 0).val = if (4 : Nat) = 1 then 0 else (i 0).val; rw [if_neg (by decide)]
      | ⟨1, _⟩ => by show (i 1).val = if (256 : Nat) = 1 then 0 else (i 1).val; rw [if_neg (by decide)]
      | ⟨2, _⟩ => by show (i 2).val = if (256 : Nat) = 1 then 0 else (i 2).val; rw [if_neg (by decide)])

/-! ## The two result buffers bypass the region -/

/-- The mean's result buffer is unscoped and no window's array. -/
theorem mem_rest_v4 : main_v4 ∈ Pipeline.restRefs sig (cfgs 0).spec :=
  Pipeline.mem_restRefs_of main_v4 (by decide) (by decide)

/-- The burst's result buffer is unscoped and no window's array. -/
theorem mem_rest_v5 : main_v5 ∈ Pipeline.restRefs sig (cfgs 0).spec :=
  Pipeline.mem_restRefs_of main_v5 (by decide) (by decide)

/-! ## What the two result buffers hold at the end -/

variable (m : (ℓ : Loc nD τ sig) → Buf (Elt F) ℓ)

/-- The burst's result buffer ends at the region's first output array with a trailing unit axis. -/
theorem burst_tail (dats : (p : Fin _) → (c : Dev nD) → Dat τ (Elt F) Unit ℕ (UR sig nD τ) ℕ (cfgs p) c) (c : Dev nD) :
    Pipeline.afterTail₀ cfgs dats 0 (V0 m) [hostOps1] c main_v5
      = broadcastInDim S4x8x256x256x1 ![0, 1, 2, 3] Gen.bcast_S4x8x256x256_S4x8x256x256x1_0_1_2_3
          ((dats 0 c).arrAt 2 cfg0.N) := by
  unfold Pipeline.afterTail₀
  show StableHlo.after hostOps1 _ (Proc.devRef .tc main_v5) = _
  after_results
  exact congrArg (broadcastInDim S4x8x256x256x1 ![0, 1, 2, 3] Gen.bcast_S4x8x256x256_S4x8x256x256x1_0_1_2_3)
    (Pipeline.withArrays_arr spec0 launch0.win.arr_inj c _ _ 2)

/-- The mean's result buffer ends at the region's second output array with a trailing unit axis. -/
theorem mean_tail (dats : (p : Fin _) → (c : Dev nD) → Dat τ (Elt F) Unit ℕ (UR sig nD τ) ℕ (cfgs p) c) (c : Dev nD) :
    Pipeline.afterTail₀ cfgs dats 0 (V0 m) [hostOps1] c main_v4
      = broadcastInDim S4x256x256x1 ![0, 1, 2] Gen.bcast_S4x256x256_S4x256x256x1_0_1_2
          ((dats 0 c).arrAt 3 cfg0.N) := by
  unfold Pipeline.afterTail₀
  show StableHlo.after hostOps1 _ (Proc.devRef .tc main_v4) = _
  after_results
  exact congrArg (broadcastInDim S4x256x256x1 ![0, 1, 2] Gen.bcast_S4x256x256_S4x256x256x1_0_1_2)
    (Pipeline.withArrays_arr spec0 launch0.win.arr_inj c _ _ 3)

end Cert.KernelIdeal.TailValue

end
-- ==== Proof.KRun.lean ====
/-
  The kernel program's run, read: its two results are the specification's two arrays.

  The region leaves the filtered burst in its first result array and the frames' sum times 0.125 in its second; the
  host operations after it add a trailing unit axis to each. Multiplying by 0.125 is dividing by 8.0 on every extended
  real, so the second result is the burst's mean.
-/
import proofs.«178553_j88347477279305_2_alg».proof.Proof.KFinal
import proofs.«178553_j88347477279305_2_alg».proof.Proof.KTail

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Tiles

open Cert.KernelIdeal Cert.KernelIdeal.Gen

variable (m : (ℓ : Loc nD τ sig) → Buf (Elt Ideal) ℓ) (c : Dev nD)

/-- The first result after the host operations that follow the region: the filtered burst. -/
theorem burst_result :
    Pipeline.afterTail₀ cfgs (dats m) 0 (V0 m) [hostOps1] c main_v5 = Cert.Spec.burst (fr m c) (co m c) := by
  refine (TailValue.burst_tail m (dats m) c).trans ?_
  rw [final_burst m c]
  funext i
  rw [TailValue.bcast_burst_apply]
  rfl

/-- The second result: the burst's mean. -/
theorem mean_result :
    Pipeline.afterTail₀ cfgs (dats m) 0 (V0 m) [hostOps1] c main_v4 = Cert.Spec.mean (fr m c) (co m c) := by
  refine (TailValue.mean_tail m (dats m) c).trans ?_
  rw [final_mean m c]
  funext i
  rw [TailValue.bcast_mean_apply]
  exact Cert.Spec.mul_eighth _

/-- Every weakly fair execution of the kernel program terminates with its two results at the specification's arrays
    and its arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v4) = Cert.Spec.mean (fr m c) (co m c)
      ∧ r.2.mem ((c.tc : Thread nD τ).loc main_v5) = Cert.Spec.burst (fr m c) (co m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v4 TailValue.mem_rest_v4).trans (mean_result m c),
      ((h c).2 main_v5 TailValue.mem_rest_v5).trans (burst_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Tiles

end
-- ==== Proof.RefValue.lean ====
/-
  The reference program's two results, read index by index, are the specification's two arrays.

  The weights are reshaped [4, 256, 256, 200] → [4, 8, 256, 256, 1, 25] (the same row-major position); the frames are
  padded by two zeros on each side of their two image axes; the 25 shifted windows of the padded frames (row shift
  `k / 5`, column shift `k % 5`) are laid side by side along a new last axis; the product with the weights is summed over
  that axis (the filtered burst), then over the frame axis, and divided by eight (the mean).
-/
import proofs.«178553_j88347477279305_2_alg».proof.Proof.Gen.ReferenceIdeal.Read
import proofs.«178553_j88347477279305_2_alg».proof.Proof.Spec
import Idealize.ShloMosaic.Lib.Pipeline.Value
import Idealize.ShloMosaic.Lib.KernelVsHost
import Idealize.ShloMosaic.Lib.ValueIdx
import Idealize.ShloMosaic.Lib.ValueIdxRank6
import Idealize.ShloMosaic.PureOps.Ideal.Laws

noncomputable section

namespace Cert.RefValue

open Cert.ReferenceIdeal Cert.ReferenceIdeal.Gen Cert.ReferenceIdeal.Read Idealize.ShloMosaic Idealize.ShloMosaic.ValueIdx

/-! ## The reshaped weights -/

/-- Entry `(b, n, y, x, 0, k)` of the reshaped weights is the weight at the same row-major position of the array as it
    arrives: `b · 13107200 + ((n · 256 + y) · 256 + x) · 25 + k` on both sides. -/
theorem v0_at (co : S4x256x256x200.Idx → EReal) (b : Fin 4) (n : Fin 8) (y x : Fin 256) (k : Fin 25) :
    val_main_v0 (F := Ideal) co (ix6 b n y x (0 : Fin 1) k) = co (Cert.Spec.widx b n y x k) := by
  unfold val_main_v0
  refine shapeCast_apply co shapeCasts_S4x256x256x200_S4x8x256x256x1x25 (ix6 b n y x (0 : Fin 1) k)
    (Cert.Spec.widx b n y x k) ?_
  rw [Shape.rowMajor_val_four, Shape.rowMajor_val_six]
  have hb := b.isLt; have hn := n.isLt; have hy := y.isLt; have hx := x.isLt; have hk := k.isLt
  have hw := Cert.Spec.wpos_lt n y x k
  show ((b.val * 256 + Cert.Spec.wpos n y x k / 51200) * 256 + Cert.Spec.wpos n y x k / 200 % 256) * 200
      + Cert.Spec.wpos n y x k % 200
    = ((((b.val * 8 + n.val) * 256 + y.val) * 256 + x.val) * 1 + 0) * 25 + k.val
  unfold Cert.Spec.wpos at hw ⊢
  omega

/-! ## The padded frames -/

/-- The padding value, the integer zero converted, is the zero. -/
theorem padValue_eq_zero (i : S_.Idx) : val_main_call0_v0 (F := Ideal) i = 0 := by
  show ((((0#32 : BitVec 32).toInt : ℤ) : ℝ) : EReal) = 0
  simp

/-- The padded frames at row `Y` and column `X` of the 260 × 260 image: the frame two rows up and two columns left
    inside the image, zero on the border. -/
theorem v1_at (fr : S4x8x256x256x1.Idx → EReal) (b : Fin 4) (n : Fin 8) (Y X : Nat) (hY : Y < 260) (hX : X < 260) :
    val_main_v1 (F := Ideal) fr (ix5 b n (⟨Y, hY⟩ : Fin 260) (⟨X, hX⟩ : Fin 260) (0 : Fin 1))
      = Cert.Spec.padded fr b n Y X := by
  unfold val_main_v1 Cert.Spec.padded
  by_cases h : (2 ≤ Y ∧ Y < 258) ∧ (2 ≤ X ∧ X < 258)
  · rw [dif_pos h]
    exact pad_apply_of_inside _ _ _ fr _ pads_S4x8x256x256x1_S4x8x260x260x1_000_000_220_220_000 h_S_ _
      (ix5 b n (⟨Y - 2, by omega⟩ : Fin 256) (⟨X - 2, by omega⟩ : Fin 256) (0 : Fin 1)) (fun a => match a with
        | ⟨0, _⟩ => by show b.val = 0 + b.val * (0 + 1); omega
        | ⟨1, _⟩ => by show n.val = 0 + n.val * (0 + 1); omega
        | ⟨2, _⟩ => by show Y = 2 + (Y - 2) * (0 + 1); omega
        | ⟨3, _⟩ => by show X = 2 + (X - 2) * (0 + 1); omega
        | ⟨4, _⟩ => by show 0 = 0 + 0 * (0 + 1); omega)
  · rw [dif_neg h]
    by_cases hYin : 2 ≤ Y ∧ Y < 258
    · have hXout : ¬(2 ≤ X ∧ X < 258) := fun hXin => h ⟨hYin, hXin⟩
      refine (pad_apply_of_not_inside _ _ _ fr _ pads_S4x8x256x256x1_S4x8x260x260x1_000_000_220_220_000 h_S_ _
        (⟨3, by decide⟩ : Fin 5) ?_).trans (padValue_eq_zero _)
      intro hin
      have h1 : 2 ≤ X := hin.1
      have h3 : (X - 2) / (0 + 1) < 256 := hin.2.2
      omega
    · refine (pad_apply_of_not_inside _ _ _ fr _ pads_S4x8x256x256x1_S4x8x260x260x1_000_000_220_220_000 h_S_ _
        (⟨2, by decide⟩ : Fin 5) ?_).trans (padValue_eq_zero _)
      intro hin
      have h1 : 2 ≤ Y := hin.1
      have h3 : (Y - 2) / (0 + 1) < 256 := hin.2.2
      omega

/-! ## One shifted window with its new unit axis -/

/-- The window of the padded frames shifted `oi` rows and `oj` columns, with a unit axis added, at `(b, n, y, x, 0, 0)`
    is the padded frame at row `y + oi` and column `x + oj`. -/
theorem window_at (fr : S4x8x256x256x1.Idx → EReal) (oi oj : Nat) (hoi : oi < 5) (hoj : oj < 5)
    (hs : S4x8x260x260x1.Slices ![0, 0, oi, oj, 0] S4x8x256x256x1) (b : Fin 4) (n : Fin 8) (y x : Fin 256) :
    broadcastInDim S4x8x256x256x1x1 ![0, 1, 2, 3, 4] bcast_S4x8x256x256x1_S4x8x256x256x1x1_0_1_2_3_4
        (extractStridedSlice S4x8x256x256x1 ![0, 0, oi, oj, 0] (val_main_v1 (F := Ideal) fr) hs)
        (ix6 b n y x (0 : Fin 1) (0 : Fin 1))
      = Cert.Spec.padded fr b n (y.val + oi) (x.val + oj) := by
  have hy := y.isLt; have hx := x.isLt
  refine (broadcastInDim_apply _ bcast_S4x8x256x256x1_S4x8x256x256x1x1_0_1_2_3_4 _
    (ix6 b n y x (0 : Fin 1) (0 : Fin 1)) (ix5 b n y x (0 : Fin 1)) (fun a => match a with
      | ⟨0, _⟩ => by show b.val = if (4 : Nat) = 1 then 0 else b.val; rw [if_neg (by decide)]
      | ⟨1, _⟩ => by show n.val = if (8 : Nat) = 1 then 0 else n.val; rw [if_neg (by decide)]
      | ⟨2, _⟩ => by show y.val = if (256 : Nat) = 1 then 0 else y.val; rw [if_neg (by decide)]
      | ⟨3, _⟩ => by show x.val = if (256 : Nat) = 1 then 0 else x.val; rw [if_neg (by decide)]
      | ⟨4, _⟩ => by show 0 = if (1 : Nat) = 1 then 0 else 0; rw [if_pos rfl])).trans ?_
  refine (extractStridedSlice_apply _ _ hs (ix5 b n y x (0 : Fin 1))
    (ix5 b n (⟨y.val + oi, by omega⟩ : Fin 260) (⟨x.val + oj, by omega⟩ : Fin 260) (0 : Fin 1)) (fun a => match a with
      | ⟨0, _⟩ => by show b.val = 0 + b.val; omega
      | ⟨1, _⟩ => by show n.val = 0 + n.val; omega
      | ⟨2, _⟩ => by show y.val + oi = oi + y.val; omega
      | ⟨3, _⟩ => by show x.val + oj = oj + x.val; omega
      | ⟨4, _⟩ => by show 0 = 0 + 0; omega)).trans ?_
  exact v1_at fr b n (y.val + oi) (x.val + oj) _ _

/-! ## The windows side by side -/

/-- Pieces of extent one laid side by side along the last axis: entry `K` of the last axis is piece `K` (the `K`
    pieces before it take up `K` entries). -/
theorem unit_piece_at {N : Nat} (xs : List ((s : Shape) × (s.Idx → EReal)))
    (h : Shape.Concatenates (xs.map (·.1)) ⟨6, ![4, 8, 256, 256, 1, N]⟩ 5) (K : Nat) (hK : K < N)
    (x₁ : S4x8x256x256x1x1.Idx → EReal) (hxk : xs[K]? = some ⟨S4x8x256x256x1x1, x₁⟩)
    (hall : xs.map (·.1) = List.replicate N S4x8x256x256x1x1)
    (b : Fin 4) (n : Fin 8) (y x : Fin 256) :
    concatenate ⟨6, ![4, 8, 256, 256, 1, N]⟩ 5 xs h (ix6 b n y x (0 : Fin 1) (⟨K, hK⟩ : Fin N))
      = x₁ (ix6 b n y x (0 : Fin 1) (0 : Fin 1)) := by
  obtain ⟨hk, hxk'⟩ := List.getElem?_eq_some_iff.1 hxk
  have hpre : (((xs.take K).map (·.1)).map fun s : Shape =>
      if h : s.rank = 6 then s.size ((5 : Fin 6).cast h.symm) else 0).sum = K := by
    rw [List.map_take, hall, List.take_replicate, List.map_replicate, List.sum_replicate,
      Nat.min_eq_left (Nat.le_of_lt hK)]
    show K • 1 = K
    simp
  exact concatenate_apply_piece (t := ⟨6, ![4, 8, 256, 256, 1, N]⟩) 5 xs h _ K hk S4x8x256x256x1x1 x₁ hxk' rfl K hpre
    (ix6 b n y x (0 : Fin 1) (0 : Fin 1)) (fun c hc => match c, hc with
      | ⟨0, _⟩, _ => rfl
      | ⟨1, _⟩, _ => rfl
      | ⟨2, _⟩, _ => rfl
      | ⟨3, _⟩, _ => rfl
      | ⟨4, _⟩, _ => rfl
      | ⟨5, _⟩, hc => absurd rfl hc) (by show K + 0 = K; omega)

/-- Below 16 the joined array reads its first part. -/
theorem v54_left (fr : S4x8x256x256x1.Idx → EReal) (b : Fin 4) (n : Fin 8) (y x : Fin 256) (K : Nat) (hK : K < 16) :
    val_main_v54 (F := Ideal) fr (ix6 b n y x (0 : Fin 1) (⟨K, by omega⟩ : Fin 25))
      = val_main_v52 (F := Ideal) fr (ix6 b n y x (0 : Fin 1) (⟨K, hK⟩ : Fin 16)) := by
  unfold val_main_v54
  exact concatenate_pair_apply_left (t := S4x8x256x256x1x25) 5 _ _
    concatenates_S4x8x256x256x1x16_S4x8x256x256x1x9_S4x8x256x256x1x25_d5 _ rfl
    (ix6 b n y x (0 : Fin 1) (⟨K, hK⟩ : Fin 16)) (fun c => match c with
      | ⟨0, _⟩ => rfl
      | ⟨1, _⟩ => rfl
      | ⟨2, _⟩ => rfl
      | ⟨3, _⟩ => rfl
      | ⟨4, _⟩ => rfl
      | ⟨5, _⟩ => rfl)

/-- From 16 on it reads its second part, sixteen entries back. -/
theorem v54_right (fr : S4x8x256x256x1.Idx → EReal) (b : Fin 4) (n : Fin 8) (y x : Fin 256) (K : Nat) (hK : K < 9) :
    val_main_v54 (F := Ideal) fr (ix6 b n y x (0 : Fin 1) (⟨K + 16, by omega⟩ : Fin 25))
      = val_main_v53 (F := Ideal) fr (ix6 b n y x (0 : Fin 1) (⟨K, hK⟩ : Fin 9)) := by
  unfold val_main_v54
  exact concatenate_pair_apply_right (t := S4x8x256x256x1x25) 5 _ _
    concatenates_S4x8x256x256x1x16_S4x8x256x256x1x9_S4x8x256x256x1x25_d5 _ rfl rfl
    (ix6 b n y x (0 : Fin 1) (⟨K, hK⟩ : Fin 9)) (fun c hc => match c, hc with
      | ⟨0, _⟩, _ => rfl
      | ⟨1, _⟩, _ => rfl
      | ⟨2, _⟩, _ => rfl
      | ⟨3, _⟩, _ => rfl
      | ⟨4, _⟩, _ => rfl
      | ⟨5, _⟩, hc => absurd rfl hc) (by show K + 16 = K + 16; rfl)

/-! Window number `5 · oi + oj` of the joined array is the padded frame `oi` rows down and `oj` columns right, one row
    of windows at a time. Windows 0 … 15 are the first part's pieces, windows 16 … 24 the second part's. -/

theorem v54_row0 (fr : S4x8x256x256x1.Idx → EReal) (b : Fin 4) (n : Fin 8) (y x : Fin 256) (oj : Nat) (hoj : oj < 5) :
    val_main_v54 (F := Ideal) fr (ix6 b n y x (0 : Fin 1) (⟨0 + oj, by omega⟩ : Fin 25))
      = Cert.Spec.padded fr b n (y.val + 0) (x.val + oj) := by
  interval_cases oj
  · exact (v54_left fr b n y x 0 (by omega)).trans ((unit_piece_at _ _ 0 (by omega) _ rfl rfl b n y x).trans
        (window_at fr 0 0 (by omega) (by omega) slices_S4x8x260x260x1_S4x8x256x256x1_0_0_0_0_0 b n y x))
  · exact (v54_left fr b n y x 1 (by omega)).trans ((unit_piece_at _ _ 1 (by omega) _ rfl rfl b n y x).trans
        (window_at fr 0 1 (by omega) (by omega) slices_S4x8x260x260x1_S4x8x256x256x1_0_0_0_1_0 b n y x))
  · exact (v54_left fr b n y x 2 (by omega)).trans ((unit_piece_at _ _ 2 (by omega) _ rfl rfl b n y x).trans
        (window_at fr 0 2 (by omega) (by omega) slices_S4x8x260x260x1_S4x8x256x256x1_0_0_0_2_0 b n y x))
  · exact (v54_left fr b n y x 3 (by omega)).trans ((unit_piece_at _ _ 3 (by omega) _ rfl rfl b n y x).trans
        (window_at fr 0 3 (by omega) (by omega) slices_S4x8x260x260x1_S4x8x256x256x1_0_0_0_3_0 b n y x))
  · exact (v54_left fr b n y x 4 (by omega)).trans ((unit_piece_at _ _ 4 (by omega) _ rfl rfl b n y x).trans
        (window_at fr 0 4 (by omega) (by omega) slices_S4x8x260x260x1_S4x8x256x256x1_0_0_0_4_0 b n y x))

theorem v54_row1 (fr : S4x8x256x256x1.Idx → EReal) (b : Fin 4) (n : Fin 8) (y x : Fin 256) (oj : Nat) (hoj : oj < 5) :
    val_main_v54 (F := Ideal) fr (ix6 b n y x (0 : Fin 1) (⟨5 + oj, by omega⟩ : Fin 25))
      = Cert.Spec.padded fr b n (y.val + 1) (x.val + oj) := by
  interval_cases oj
  · exact (v54_left fr b n y x 5 (by omega)).trans ((unit_piece_at _ _ 5 (by omega) _ rfl rfl b n y x).trans
        (window_at fr 1 0 (by omega) (by omega) slices_S4x8x260x260x1_S4x8x256x256x1_0_0_1_0_0 b n y x))
  · exact (v54_left fr b n y x 6 (by omega)).trans ((unit_piece_at _ _ 6 (by omega) _ rfl rfl b n y x).trans
        (window_at fr 1 1 (by omega) (by omega) slices_S4x8x260x260x1_S4x8x256x256x1_0_0_1_1_0 b n y x))
  · exact (v54_left fr b n y x 7 (by omega)).trans ((unit_piece_at _ _ 7 (by omega) _ rfl rfl b n y x).trans
        (window_at fr 1 2 (by omega) (by omega) slices_S4x8x260x260x1_S4x8x256x256x1_0_0_1_2_0 b n y x))
  · exact (v54_left fr b n y x 8 (by omega)).trans ((unit_piece_at _ _ 8 (by omega) _ rfl rfl b n y x).trans
        (window_at fr 1 3 (by omega) (by omega) slices_S4x8x260x260x1_S4x8x256x256x1_0_0_1_3_0 b n y x))
  · exact (v54_left fr b n y x 9 (by omega)).trans ((unit_piece_at _ _ 9 (by omega) _ rfl rfl b n y x).trans
        (window_at fr 1 4 (by omega) (by omega) slices_S4x8x260x260x1_S4x8x256x256x1_0_0_1_4_0 b n y x))

theorem v54_row2 (fr : S4x8x256x256x1.Idx → EReal) (b : Fin 4) (n : Fin 8) (y x : Fin 256) (oj : Nat) (hoj : oj < 5) :
    val_main_v54 (F := Ideal) fr (ix6 b n y x (0 : Fin 1) (⟨10 + oj, by omega⟩ : Fin 25))
      = Cert.Spec.padded fr b n (y.val + 2) (x.val + oj) := by
  interval_cases oj
  · exact (v54_left fr b n y x 10 (by omega)).trans ((unit_piece_at _ _ 10 (by omega) _ rfl rfl b n y x).trans
        (window_at fr 2 0 (by omega) (by omega) slices_S4x8x260x260x1_S4x8x256x256x1_0_0_2_0_0 b n y x))
  · exact (v54_left fr b n y x 11 (by omega)).trans ((unit_piece_at _ _ 11 (by omega) _ rfl rfl b n y x).trans
        (window_at fr 2 1 (by omega) (by omega) slices_S4x8x260x260x1_S4x8x256x256x1_0_0_2_1_0 b n y x))
  · exact (v54_left fr b n y x 12 (by omega)).trans ((unit_piece_at _ _ 12 (by omega) _ rfl rfl b n y x).trans
        (window_at fr 2 2 (by omega) (by omega) slices_S4x8x260x260x1_S4x8x256x256x1_0_0_2_2_0 b n y x))
  · exact (v54_left fr b n y x 13 (by omega)).trans ((unit_piece_at _ _ 13 (by omega) _ rfl rfl b n y x).trans
        (window_at fr 2 3 (by omega) (by omega) slices_S4x8x260x260x1_S4x8x256x256x1_0_0_2_3_0 b n y x))
  · exact (v54_left fr b n y x 14 (by omega)).trans ((unit_piece_at _ _ 14 (by omega) _ rfl rfl b n y x).trans
        (window_at fr 2 4 (by omega) (by omega) slices_S4x8x260x260x1_S4x8x256x256x1_0_0_2_4_0 b n y x))

theorem v54_row3 (fr : S4x8x256x256x1.Idx → EReal) (b : Fin 4) (n : Fin 8) (y x : Fin 256) (oj : Nat) (hoj : oj < 5) :
    val_main_v54 (F := Ideal) fr (ix6 b n y x (0 : Fin 1) (⟨15 + oj, by omega⟩ : Fin 25))
      = Cert.Spec.padded fr b n (y.val + 3) (x.val + oj) := by
  interval_cases oj
  · exact (v54_left fr b n y x 15 (by omega)).trans ((unit_piece_at _ _ 15 (by omega) _ rfl rfl b n y x).trans
        (window_at fr 3 0 (by omega) (by omega) slices_S4x8x260x260x1_S4x8x256x256x1_0_0_3_0_0 b n y x))
  · exact (v54_right fr b n y x 0 (by omega)).trans ((unit_piece_at _ _ 0 (by omega) _ rfl rfl b n y x).trans
        (window_at fr 3 1 (by omega) (by omega) slices_S4x8x260x260x1_S4x8x256x256x1_0_0_3_1_0 b n y x))
  · exact (v54_right fr b n y x 1 (by omega)).trans ((unit_piece_at _ _ 1 (by omega) _ rfl rfl b n y x).trans
        (window_at fr 3 2 (by omega) (by omega) slices_S4x8x260x260x1_S4x8x256x256x1_0_0_3_2_0 b n y x))
  · exact (v54_right fr b n y x 2 (by omega)).trans ((unit_piece_at _ _ 2 (by omega) _ rfl rfl b n y x).trans
        (window_at fr 3 3 (by omega) (by omega) slices_S4x8x260x260x1_S4x8x256x256x1_0_0_3_3_0 b n y x))
  · exact (v54_right fr b n y x 3 (by omega)).trans ((unit_piece_at _ _ 3 (by omega) _ rfl rfl b n y x).trans
        (window_at fr 3 4 (by omega) (by omega) slices_S4x8x260x260x1_S4x8x256x256x1_0_0_3_4_0 b n y x))

theorem v54_row4 (fr : S4x8x256x256x1.Idx → EReal) (b : Fin 4) (n : Fin 8) (y x : Fin 256) (oj : Nat) (hoj : oj < 5) :
    val_main_v54 (F := Ideal) fr (ix6 b n y x (0 : Fin 1) (⟨20 + oj, by omega⟩ : Fin 25))
      = Cert.Spec.padded fr b n (y.val + 4) (x.val + oj) := by
  interval_cases oj
  · exact (v54_right fr b n y x 4 (by omega)).trans ((unit_piece_at _ _ 4 (by omega) _ rfl rfl b n y x).trans
        (window_at fr 4 0 (by omega) (by omega) slices_S4x8x260x260x1_S4x8x256x256x1_0_0_4_0_0 b n y x))
  · exact (v54_right fr b n y x 5 (by omega)).trans ((unit_piece_at _ _ 5 (by omega) _ rfl rfl b n y x).trans
        (window_at fr 4 1 (by omega) (by omega) slices_S4x8x260x260x1_S4x8x256x256x1_0_0_4_1_0 b n y x))
  · exact (v54_right fr b n y x 6 (by omega)).trans ((unit_piece_at _ _ 6 (by omega) _ rfl rfl b n y x).trans
        (window_at fr 4 2 (by omega) (by omega) slices_S4x8x260x260x1_S4x8x256x256x1_0_0_4_2_0 b n y x))
  · exact (v54_right fr b n y x 7 (by omega)).trans ((unit_piece_at _ _ 7 (by omega) _ rfl rfl b n y x).trans
        (window_at fr 4 3 (by omega) (by omega) slices_S4x8x260x260x1_S4x8x256x256x1_0_0_4_3_0 b n y x))
  · exact (v54_right fr b n y x 8 (by omega)).trans ((unit_piece_at _ _ 8 (by omega) _ rfl rfl b n y x).trans
        (window_at fr 4 4 (by omega) (by omega) slices_S4x8x260x260x1_S4x8x256x256x1_0_0_4_4_0 b n y x))

/-- Entry `k` of the joined array is the padded frame `k / 5` rows down and `k % 5` columns right. -/
theorem v54_at (fr : S4x8x256x256x1.Idx → EReal) (b : Fin 4) (n : Fin 8) (y x : Fin 256) (k : Fin 25) :
    val_main_v54 (F := Ideal) fr (ix6 b n y x (0 : Fin 1) k)
      = Cert.Spec.padded fr b n (y.val + k.val / 5) (x.val + k.val % 5) := by
  have hk := k.isLt
  have hlt : k.val % 5 < 5 := Nat.mod_lt _ (by decide)
  have hq : k.val / 5 < 5 := by omega
  generalize hoi : k.val / 5 = oi at hq ⊢
  have hsplit : k.val = 5 * oi + k.val % 5 := by omega
  interval_cases oi
  · have e : k = (⟨0 + k.val % 5, by omega⟩ : Fin 25) := Fin.ext (by show k.val = 0 + k.val % 5; omega)
    exact (congrArg (fun j => val_main_v54 (F := Ideal) fr (ix6 b n y x (0 : Fin 1) j)) e).trans (v54_row0 fr b n y x _ hlt)
  · have e : k = (⟨5 + k.val % 5, by omega⟩ : Fin 25) := Fin.ext (by show k.val = 5 + k.val % 5; omega)
    exact (congrArg (fun j => val_main_v54 (F := Ideal) fr (ix6 b n y x (0 : Fin 1) j)) e).trans (v54_row1 fr b n y x _ hlt)
  · have e : k = (⟨10 + k.val % 5, by omega⟩ : Fin 25) := Fin.ext (by show k.val = 10 + k.val % 5; omega)
    exact (congrArg (fun j => val_main_v54 (F := Ideal) fr (ix6 b n y x (0 : Fin 1) j)) e).trans (v54_row2 fr b n y x _ hlt)
  · have e : k = (⟨15 + k.val % 5, by omega⟩ : Fin 25) := Fin.ext (by show k.val = 15 + k.val % 5; omega)
    exact (congrArg (fun j => val_main_v54 (F := Ideal) fr (ix6 b n y x (0 : Fin 1) j)) e).trans (v54_row3 fr b n y x _ hlt)
  · have e : k = (⟨20 + k.val % 5, by omega⟩ : Fin 25) := Fin.ext (by show k.val = 20 + k.val % 5; omega)
    exact (congrArg (fun j => val_main_v54 (F := Ideal) fr (ix6 b n y x (0 : Fin 1) j)) e).trans (v54_row4 fr b n y x _ hlt)
/-! ## The two results -/

/-- The first result: at every pixel of every frame the 25 taps summed. -/
theorem burst_eq (fr : S4x8x256x256x1.Idx → EReal) (co : S4x256x256x200.Idx → EReal) :
    val_main_v56 (F := Ideal) fr co = Cert.Spec.burst fr co := by
  funext i
  obtain ⟨b, n, y, x, rfl⟩ : ∃ (b : Fin 4) (n : Fin 8) (y x : Fin 256), i = ix5 b n y x (0 : Fin 1) :=
    ⟨i 0, i 1, i 2, i 3, funext fun a => match a with
      | ⟨0, _⟩ => rfl
      | ⟨1, _⟩ => rfl
      | ⟨2, _⟩ => rfl
      | ⟨3, _⟩ => rfl
      | ⟨4, _⟩ => Subsingleton.elim (α := Fin 1) _ _⟩
  rw [val_main_v56_apply]
  show Ideal.ofBits .f32 0x00000000#32 + ∑ k : Fin 25, val_main_v55 (F := Ideal) fr co (idx_main_v56 (ix5 b n y x (0 : Fin 1)) k)
    = ∑ k : Fin 25, Cert.Spec.tap fr co b n y x k
  rw [Ideal.ofBits_zero_f32, zero_add]
  refine Finset.sum_congr rfl fun k _ => ?_
  have hidx : idx_main_v56 (ix5 b n y x (0 : Fin 1)) k = ix6 b n y x (0 : Fin 1) k := funext fun a => match a with
    | ⟨0, _⟩ => rfl
    | ⟨1, _⟩ => rfl
    | ⟨2, _⟩ => rfl
    | ⟨3, _⟩ => rfl
    | ⟨4, _⟩ => rfl
    | ⟨5, _⟩ => rfl
  rw [hidx, val_main_v55_apply, Ideal.mulf_def, v0_at, v54_at]
  rfl

/-- The second result: the first summed over the eight frames and divided by eight. -/
theorem mean_eq (fr : S4x8x256x256x1.Idx → EReal) (co : S4x256x256x200.Idx → EReal) :
    val_main_v59 (F := Ideal) fr co = Cert.Spec.mean fr co := by
  funext i
  obtain ⟨b, y, x, rfl⟩ : ∃ (b : Fin 4) (y x : Fin 256), i = ix4 b y x (0 : Fin 1) :=
    ⟨i 0, i 1, i 2, funext fun a => match a with
      | ⟨0, _⟩ => rfl
      | ⟨1, _⟩ => rfl
      | ⟨2, _⟩ => rfl
      | ⟨3, _⟩ => Subsingleton.elim (α := Fin 1) _ _⟩
  rw [val_main_v59_apply, Ideal.hostDivf_def, val_main_v57_apply, val_main_v58_apply, burst_eq]
  show Ideal.div (Ideal.ofBits .f32 0x00000000#32
      + ∑ k : Fin 8, Cert.Spec.burst fr co (idx_main_v57 (ix4 b y x (0 : Fin 1)) k)) (Ideal.ofBits .f32 0x41000000#32)
    = Ideal.div (∑ k : Fin 8, Cert.Spec.filtered fr co b k y x) (Ideal.ofBits .f32 0x41000000#32)
  rw [Ideal.ofBits_zero_f32, zero_add]
  rfl

end Cert.RefValue

end
-- ==== Proof.lean ====
/-
  The kernel applies to every pixel of a burst of eight frames its own 5 × 5 filter and averages the eight filtered
  frames; the reference does the same with stacked shifted copies of the padded frames and jnp's sums. Over the extended
  reals both programs' first result is, at every pixel, the sum of the 25 products weight × padded-frame entry, and their
  second result that sum's sum over the eight frames divided by 8 (the kernel multiplies by 0.125, which is the same
  on every extended real): `Cert.Spec`. The kernel side is read off the generated frame run (the body's values per
  control case, the accumulation over the frames of a tile, the blocks that cover each result array, the host operations
  around the region); the reference side off its generated run, one operation at a time. The three frame claims are the
  generated frames; the idealization rewrote nothing, so `preserves` is trivial.
-/
import proofs.«178553_j88347477279305_2_alg».proof.Defs
import proofs.«178553_j88347477279305_2_alg».proof.Proof.Gen.Kernel
import proofs.«178553_j88347477279305_2_alg».proof.Proof.Gen.Kernel.Skeleton
import proofs.«178553_j88347477279305_2_alg».proof.Proof.Gen.Kernel.Launch
import proofs.«178553_j88347477279305_2_alg».proof.Proof.Gen.Kernel.Points
import proofs.«178553_j88347477279305_2_alg».proof.Proof.Gen.Kernel.Frame
import proofs.«178553_j88347477279305_2_alg».proof.Proof.Gen.KernelIdeal
import proofs.«178553_j88347477279305_2_alg».proof.Proof.Gen.KernelIdeal.Skeleton
import proofs.«178553_j88347477279305_2_alg».proof.Proof.Gen.KernelIdeal.Launch
import proofs.«178553_j88347477279305_2_alg».proof.Proof.Gen.KernelIdeal.Points
import proofs.«178553_j88347477279305_2_alg».proof.Proof.Gen.KernelIdeal.Frame
import proofs.«178553_j88347477279305_2_alg».proof.Proof.Gen.ReferenceIdeal
import proofs.«178553_j88347477279305_2_alg».proof.Proof.Gen.Pre_finite_inputs
import proofs.«178553_j88347477279305_2_alg».proof.Proof.Gen.ReferenceIdeal.Run
import proofs.«178553_j88347477279305_2_alg».proof.Proof.Gen.ReferenceIdeal.Read
import proofs.«178553_j88347477279305_2_alg».proof.Proof.Spec
import proofs.«178553_j88347477279305_2_alg».proof.Proof.KRun
import proofs.«178553_j88347477279305_2_alg».proof.Proof.RefValue
import Idealize.ShloMosaic.Adequacy
import Idealize.ShloMosaic.Init

noncomputable section

namespace Cert.Proof

open Idealize.ShloMosaic Idealize.SL.Sem Cert.Kernel

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2)
    (Cert.ReferenceIdeal.Value.run (F := Ideal) m ρ)

theorem preserves : Cert.preserves_Kernel_KernelIdeal := trivial

/-- At the extended reals both programs, run from memories that agree on the frames and the weights, end with the
    specification's two arrays of those arguments. -/
theorem algebraic : Cert.algebraic_KernelIdeal_ReferenceIdeal := by
  intro m ρ m' ρ' _ hagree
  refine ⟨fun c => Cert.Spec.mean (Cert.KernelIdeal.Tiles.fr m c) (Cert.KernelIdeal.Tiles.co m c),
    fun c => Cert.Spec.burst (Cert.KernelIdeal.Tiles.fr m c) (Cert.KernelIdeal.Tiles.co m c),
    Cert.KernelIdeal.Tiles.run m ρ, ?_⟩
  refine (θ_run Cert.ReferenceIdeal.defs _ _).mono (fun _ h c => ⟨?_, ?_, (h c).2.2.1, (h c).2.2.2⟩)
    (Cert.ReferenceIdeal.Value.run (F := Ideal) m' ρ')
  · rw [(h c).1, Cert.ReferenceIdeal.Read.val_main_v59_eq, Cert.RefValue.mean_eq, (hagree c).1, (hagree c).2]
  · rw [(h c).2.1, Cert.ReferenceIdeal.Read.val_main_v56_eq, Cert.RefValue.burst_eq, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
